-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x128x128 : Shape := ⟨3, ![8192, 128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x128x128 : S_.BroadcastsInDim S8192x128x128 (![] : Fin 0 → Fin S8192x128x128.rank)
  reducesTo_S8192x128x128_S_d0_1_2 : S8192x128x128.ReducesTo [0, 1, 2] S_

variable [Facts]

def fn {F : FTy → Type} [FloatOps F] (main_arg0 : FVec F S8192x128 .f32) (main_arg1 : FVec F S8192x128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128x128 .f32 := Host.absf main_arg1
  let main_cst_0 : FVec F S_ .f32 := constant S_ .f32 0x7F800000#32
  let main_v5 : FVec F S8192x128x128 .f32 := broadcastInDim S8192x128x128 ![] bcast_S_S8192x128x128 main_cst_0
  let main_v6 : IVec S8192x128x128 1 := cmpf .olt main_v4 main_v5
  let main_c_1 : IVec S_ 1 := constantI S_ 1 1#1
  let main_v7 : IVec S_ 1 := (fun x v => Host.reduce IntOp.andi x v reducesTo_S8192x128x128_S_d0_1_2 h_S_) main_v6 main_c_1
  let main_v8 : IVec S_ 1 := andi main_v3 main_v7
  main_v8
-- ==== Kernel.lean ====
abbrev S8192x128 : Shape := ⟨2, ![8192, 128]⟩
abbrev S8192x128x128 : Shape := ⟨3, ![8192, 128, 128]⟩
abbrev S128x128 : Shape := ⟨2, ![128, 128]⟩
abbrev S128x128x128 : Shape := ⟨3, ![128, 128, 128]⟩
abbrev S128 : Shape := ⟨1, ![128]⟩
abbrev S128x1 : Shape := ⟨2, ![128, 1]⟩
abbrev S128x1x128 : Shape := ⟨3, ![128, 1, 128]⟩
abbrev S128x128x1 : Shape := ⟨3, ![128, 128, 1]⟩
abbrev S128x1x1 : Shape := ⟨3, ![128, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128x128, .f32⟩
  | .hbm, ⟨2, _⟩ => ⟨S8192x128, .f32⟩
  | .hbm, ⟨3, _⟩ => ⟨S8192x128x128, .f32⟩
  | .local _ .vmem, ⟨0, _⟩ => ⟨S128x128, .f32⟩
  | .local _ .vmem, ⟨1, _⟩ => ⟨S128x128, .f32⟩
  | .local _ .vmem, ⟨2, _⟩ => ⟨S128x128x128, .f32⟩
  | .local _ .vmem, ⟨3, _⟩ => ⟨S128x128x128, .f32⟩
  | .local _ .vmem, ⟨4, _⟩ => ⟨S128x128, .f32⟩
  | .local _ .vmem, ⟨5, _⟩ => ⟨S128x128, .f32⟩
  | .local _ .vmem, ⟨6, _⟩ => ⟨S128x128x128, .f32⟩
  | .local _ .vmem, ⟨7, _⟩ => ⟨S128x128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x128_S128x128_0_0 : ∀ a, (![0, 0] : Fin 2 → Nat) a + S128x128.size a ≤ S128x128.size a
  h_S128x128 : 0 < S128x128.numel
  reduces_S128x128_S128 : S128x128.Reduces [1] S128
  shapeCasts_S128_S128x1 : S128.ShapeCasts S128x1
  broadcasts_S128x1_S128x128 : S128x1.Broadcasts S128x128
  inb_S128x128x128_S128x128x128_0_0_0 : ∀ a, (![0, 0, 0] : Fin 3 → Nat) a + S128x128x128.size a ≤ S128x128x128.size a
  h_S128x128x128 : 0 < S128x128x128.numel
  shapeCasts_S128x128_S128x1x128 : S128x128.ShapeCasts S128x1x128
  broadcasts_S128x1x128_S128x128x128 : S128x1x128.Broadcasts S128x128x128
  reduces_S128x128x128_S128x128 : S128x128x128.Reduces [2] S128x128
  shapeCasts_S128x128_S128x128x1 : S128x128.ShapeCasts S128x128x1
  broadcasts_S128x128x1_S128x128x128 : S128x128x1.Broadcasts S128x128x128
  reduces_S128x128x128_S128x128_2 : S128x128x128.Reduces [1] S128x128
  shapeCasts_S128x1_S128x1x1 : S128x1.ShapeCasts S128x1x1
  broadcasts_S128x1x1_S128x128x128 : S128x1x1.Broadcasts S128x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x128.size a ≤ S8192x128x128.size a
  hwx0_1 : ∀ i : grid0.Coords, EltTy.bits .f32 = 32 ∨ (Rect.block (s := S8192x128x128) S128x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x128.size a
  hwx0_2 : ∀ i : grid0.Coords, EltTy.bits .f32 = 32 ∨ (Rect.block (s := S8192x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x128.size a ≤ S8192x128x128.size a
  hwx0_3 : ∀ i : grid0.Coords, EltTy.bits .f32 = 32 ∨ (Rect.block (s := S8192x128x128) S128x128x128.size (cc0_transform_3 i) (hinb0_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x128x128 : Shape := ⟨3, ![8192, 128, 128]⟩
abbrev S_ : Shape := ⟨0, ![]⟩
abbrev S8192 : Shape := ⟨1, ![8192]⟩
abbrev S8192x1 : Shape := ⟨2, ![8192, 1]⟩
abbrev S8192x128x1 : Shape := ⟨3, ![8192, 128, 1]⟩
abbrev S8192x1x128 : Shape := ⟨3, ![8192, 1, 128]⟩
abbrev S128 : Shape := ⟨1, ![128]⟩
abbrev S128x1 : Shape := ⟨2, ![128, 1]⟩
abbrev S128x2 : Shape := ⟨2, ![128, 2]⟩

abbrev nBuf : Space → Nat
  | .hbm => 46
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128x128, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x128, .f32⟩
  | .hbm, ⟨15, _⟩ => ⟨S8192x128, .f32⟩
  | .hbm, ⟨16, _⟩ => ⟨S8192x128x1, .f32⟩
  | .hbm, ⟨17, _⟩ => ⟨S8192x1x128, .f32⟩
  | .hbm, ⟨18, _⟩ => ⟨S8192x128x128, .f32⟩
  | .hbm, ⟨19, _⟩ => ⟨S8192x128x128, .f32⟩
  | .hbm, ⟨20, _⟩ => ⟨S8192x128x128, .f32⟩
  | .hbm, ⟨21, _⟩ => ⟨S_, .f32⟩
  | .hbm, ⟨22, _⟩ => ⟨S8192x128x128, .f32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S128x1, .i32⟩
  | .hbm, ⟨40, _⟩ => ⟨S128x1, .i32⟩
  | .hbm, ⟨41, _⟩ => ⟨S128x2, .i32⟩
  | .hbm, ⟨42, _⟩ => ⟨S8192x128x128, .f32⟩
  | .hbm, ⟨43, _⟩ => ⟨S8192x128x128, .f32⟩
  | .hbm, ⟨44, _⟩ => ⟨S8192x128x128, .f32⟩
  | .hbm, ⟨45, _⟩ => ⟨S8192x128x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S8192x128_S8192x128x1_0_1 : S8192x128.BroadcastsInDim S8192x128x1 (![0, 1] : Fin 2 → Fin S8192x128x1.rank)
  bcast_S8192x128_S8192x1x128_0_2 : S8192x128.BroadcastsInDim S8192x1x128 (![0, 2] : Fin 2 → Fin S8192x1x128.rank)
  bcast_S8192x128x1_S8192x128x128_0_1_2 : S8192x128x1.BroadcastsInDim S8192x128x128 (![0, 1, 2] : Fin 3 → Fin S8192x128x128.rank)
  bcast_S8192x1x128_S8192x128x128_0_1_2 : S8192x1x128.BroadcastsInDim S8192x128x128 (![0, 1, 2] : Fin 3 → Fin S8192x128x128.rank)
  bcast_S_S8192x128x128 : S_.BroadcastsInDim S8192x128x128 (![] : Fin 0 → Fin S8192x128x128.rank)
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  scatter_S8192x128x128_S128x2_S8192x128_0_12_12_1_wf : ScatterDims.WF S8192x128x128 S128x2 S8192x128 [0] [1, 2] [1, 2] 1
  dot_S8192x128x128_S8192x128x128_S8192x128x128_1_2_2_1_0_0_wf : DotDims.WF S8192x128x128 S8192x128x128 S8192x128x128 [1] [2] [2] [1] [0] [0]

variable [Facts₀]

def scatter_S8192x128x128_S128x2_S8192x128_0_12_12_1 : ScatterDims S8192x128x128 S128x2 S8192x128 where
  updateWindowDims := [0]
  insertedWindowDims := [1, 2]
  scatterDimsToOperandDims := [1, 2]
  indexVectorDim := 1
  wf := scatter_S8192x128x128_S128x2_S8192x128_0_12_12_1_wf
def dot_S8192x128x128_S8192x128x128_S8192x128x128_1_2_2_1_0_0 : DotDims S8192x128x128 S8192x128x128 S8192x128x128 where
  lhsContracting := [1]
  rhsContracting := [2]
  lhsNonContracting := [2]
  rhsNonContracting := [1]
  lhsBatch := [0]
  rhsBatch := [0]
  wf := dot_S8192x128x128_S8192x128x128_S8192x128x128_1_2_2_1_0_0_wf

class Facts : Prop extends Facts₀ where

variable [Facts]
-- ==== Proof.Spec.lean ====
/-
  The mathematics of this certificate, free of either program.

  For one batch row: `x` is the row of 128 logits, `S` the row's 128 × 128 covariance. The softmax
  `p = exp (x − max x) / ∑ exp (x − max x)` has Jacobian `J = diag p − p pᵀ`, and the propagated covariance is
  `J S Jᵀ`. Written out, `(J S Jᵀ) i l = ∑ k, (∑ j, S j k · J i j) · J l k` (the sandwich, `covSandwich`), and
  expanding `J i j = p i (δ i j − p j)` gives the closed form
  `p i · p l · (S i l − r l − s i + a)`, `s = S p`, `r = Sᵀ p`, `a = pᵀ S p` (`covClosed`).
  Both are stated on the extended reals with the exact operations; they agree where `p` and `S` are real
  (the distributive law fails at the infinities), which is the content of the law proved beside this file.
-/
import Idealize.ShloMosaic.PureOps.Ideal
import Idealize.ShloMosaic.Lib.ValueIdx

noncomputable section

namespace Cert.SoftmaxCov

open Idealize.ShloMosaic Idealize.ShloMosaic.ValueIdx

/-- The largest entry of a row, folded from −∞ (the word `0xFF800000`). -/
def rowMax (x : Fin 128 → EReal) : EReal :=
  (Finset.univ : Finset (Fin 128)).fold max (Ideal.ofBits .f32 0xFF800000#32) x

/-- `exp (x k − max x)`. -/
def expShift (x : Fin 128 → EReal) (k : Fin 128) : EReal := Ideal.exp (x k - rowMax x)

/-- The softmax of a row: `exp (x k − max x)` over the sum of those. -/
def softmax (x : Fin 128 → EReal) (k : Fin 128) : EReal :=
  Ideal.div (expShift x k) (∑ k' : Fin 128, expShift x k')

/-- The closed form of the propagated covariance:
    `p i · p l · (((S i l − r l) − s i) + a)` with `r l = ∑ k, S k l · p k`, `s i = ∑ k, S i k · p k`,
    `a = ∑ j, p j · s j`. -/
def covClosed (p : Fin 128 → EReal) (S : Fin 128 → Fin 128 → EReal) (i l : Fin 128) : EReal :=
  (p i * p l) * (((S i l - ∑ k : Fin 128, S k l * p k) - ∑ k : Fin 128, S i k * p k)
    + ∑ j : Fin 128, p j * ∑ k : Fin 128, S j k * p k)

/-- The softmax Jacobian `diag p − p pᵀ`. -/
def jac (p : Fin 128 → EReal) (i j : Fin 128) : EReal := (if i = j then p i else 0) - p i * p j

/-- The sandwich `J S Jᵀ` as two contractions: first over `j`, then over `k`. -/
def covSandwich (p : Fin 128 → EReal) (S : Fin 128 → Fin 128 → EReal) (i l : Fin 128) : EReal :=
  ∑ k : Fin 128, (∑ j : Fin 128, S j k * jac p i j) * jac p l k

/-- The whole arrays: 8192 rows of logits, 8192 covariances. -/
abbrev Logits : Type := (⟨2, ![8192, 128]⟩ : Shape).Idx → EReal
abbrev Covs : Type := (⟨3, ![8192, 128, 128]⟩ : Shape).Idx → EReal

/-- Row `b` of the logits. -/
def rowOf (mu : Logits) (b : Fin 8192) : Fin 128 → EReal := fun k => mu (ix2 b k)

/-- Covariance `b`. -/
def slabOf (sg : Covs) (b : Fin 8192) : Fin 128 → Fin 128 → EReal := fun j k => sg (ix3 b j k)

/-- The first result: every row's softmax. -/
def probs (mu : Logits) : Logits := fun i => softmax (rowOf mu (i 0)) (i 1)

/-- The second result, in closed form. -/
def covOut (mu : Logits) (sg : Covs) : Covs :=
  fun i => covClosed (softmax (rowOf mu (i 0))) (slabOf sg (i 0)) (i 1) (i 2)

/-- The second result, as the sandwich. -/
def covOutSandwich (mu : Logits) (sg : Covs) : Covs :=
  fun i => covSandwich (softmax (rowOf mu (i 0))) (slabOf sg (i 0)) (i 1) (i 2)

end Cert.SoftmaxCov

end
-- ==== Proof.Law.lean ====
/-
  The law that joins the two forms of the propagated covariance, and the reality of the softmax.

  For a probability row `p` and a covariance `S`, the softmax Jacobian is `J i j = δ i j · p i − p i · p j`, and
  the sandwich is `(J S Jᵀ) i l = ∑ k, (∑ j, S j k · J i j) · J l k`. The inner contraction collapses its Kronecker
  term: `∑ j, S j k · J i j = p i · (S i k − r k)` with `r k = ∑ j, S j k · p j`. The outer one does the same:
  `∑ k, p i · (S i k − r k) · J l k = p i · p l · ((S i l − r l) − ∑ k, (S i k − r k) · p k)`, and
  `∑ k, r k · p k = ∑ j, p j · ∑ k, S j k · p k` by exchanging the two sums. That is the closed form
  `p i · p l · (((S i l − r l) − s i) + a)`. The identity uses the distributive law, so it is proved over the reals and
  carried to the extended reals along the coercion, which is a ring map on real entries; at the infinities it fails.

  A row of real logits has a real maximum (the fold of `max` from −∞ over a nonempty family of reals), so every
  shifted exponential is a positive real, their sum is a positive real, and the quotient is a real.
-/
import proofs.«174759_j18476949308045_2_alg».proof.Proof.Spec
import Idealize.ShloMosaic.PureOps.Ideal

noncomputable section

namespace Cert.SoftmaxCov

open Idealize.ShloMosaic

/-- The coercion of the reals into the extended reals commutes with finite sums. -/
theorem coe_finset_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The inner contraction over the reals: `∑ j, S j k · J i j = p i · (S i k − ∑ j, S j k · p j)`. -/
theorem inner_real {ι : Type*} [Fintype ι] [DecidableEq ι] (p : ι → ℝ) (S : ι → ι → ℝ) (i k : ι) :
    (∑ j, S j k * ((if i = j then p i else 0) - p i * p j)) = p i * (S i k - ∑ j, S j k * p j) := by
  have h1 : (∑ j, S j k * (if i = j then p i else 0)) = S i k * p i := by
    simp only [mul_ite, mul_zero, Finset.sum_ite_eq, Finset.mem_univ, if_true]
  have h2 : (∑ j, S j k * (p i * p j)) = p i * ∑ j, S j k * p j := by
    rw [Finset.mul_sum]
    exact Finset.sum_congr rfl fun j _ => by ring
  simp only [mul_sub, Finset.sum_sub_distrib, h1, h2]
  ring

/-- Exchanging the two sums: `∑ k, (∑ j, S j k · p j) · p k = ∑ j, p j · ∑ k, S j k · p k`. -/
theorem quad_real {ι : Type*} [Fintype ι] (p : ι → ℝ) (S : ι → ι → ℝ) :
    (∑ k, (∑ j, S j k * p j) * p k) = ∑ j, p j * ∑ k, S j k * p k := by
  simp only [Finset.sum_mul, Finset.mul_sum]
  rw [Finset.sum_comm]
  exact Finset.sum_congr rfl fun j _ => Finset.sum_congr rfl fun k _ => by ring

/-- The sandwich equals the closed form, over the reals and any finite index type. -/
theorem sandwich_real {ι : Type*} [Fintype ι] [DecidableEq ι] (p : ι → ℝ) (S : ι → ι → ℝ) (i l : ι) :
    (∑ k, (∑ j, S j k * ((if i = j then p i else 0) - p i * p j)) * ((if l = k then p l else 0) - p l * p k))
      = (p i * p l) * (((S i l - ∑ k, S k l * p k) - ∑ k, S i k * p k) + ∑ j, p j * ∑ k, S j k * p k) := by
  have h1 : (∑ k, (p i * (S i k - ∑ j, S j k * p j)) * (if l = k then p l else 0))
      = (p i * (S i l - ∑ j, S j l * p j)) * p l := by
    simp only [mul_ite, mul_zero, Finset.sum_ite_eq, Finset.mem_univ, if_true]
  have h2 : (∑ k, (p i * (S i k - ∑ j, S j k * p j)) * (p l * p k))
      = (p i * p l) * ((∑ k, S i k * p k) - ∑ k, (∑ j, S j k * p j) * p k) := by
    rw [← Finset.sum_sub_distrib, Finset.mul_sum]
    exact Finset.sum_congr rfl fun k _ => by ring
  simp only [inner_real, mul_sub (p i * (S i _ - _)), Finset.sum_sub_distrib, h1, h2, quad_real]
  ring

/-- The softmax Jacobian of a real row is real: `δ i j · p i − p i · p j`. -/
theorem jac_coe (p : Fin 128 → ℝ) (a b : Fin 128) :
    jac (fun k => (p k : EReal)) a b = (((if a = b then p a else 0) - p a * p b : ℝ) : EReal) := by
  unfold jac
  by_cases h : a = b
  · simp only [h, if_true, EReal.coe_sub, EReal.coe_mul]
  · simp only [h, if_false, EReal.coe_sub, EReal.coe_mul, EReal.coe_zero]

/-- Where the probabilities and the covariance are real, the sandwich J S Jᵀ is the closed form. -/
theorem covSandwich_eq_covClosed (p : Fin 128 → EReal) (S : Fin 128 → Fin 128 → EReal)
    (hp : ∀ k, ∃ r : ℝ, p k = (r : EReal)) (hS : ∀ j k, ∃ r : ℝ, S j k = (r : EReal)) (i l : Fin 128) :
    covSandwich p S i l = covClosed p S i l := by
  choose pr hpr using hp
  choose Sr hSr using hS
  obtain rfl : p = fun k => (pr k : EReal) := funext hpr
  obtain rfl : S = fun j k => (Sr j k : EReal) := funext fun j => funext (hSr j)
  unfold covSandwich covClosed
  simp only [jac_coe, ← EReal.coe_mul, coe_finset_sum, ← EReal.coe_sub, ← EReal.coe_add]
  exact congrArg _ (sandwich_real pr Sr i l)

/-- The word of −∞ denotes `⊥`. -/
theorem ofBits_negInf : Ideal.ofBits .f32 0xFF800000#32 = (⊥ : EReal) := by
  simp [Ideal.ofBits, Ideal.ieee]

/-- The fold of `max` from `⊥` over a nonempty finite family of reals is a real. -/
theorem fold_max_real {ι : Type*} (s : Finset ι) (hs : s.Nonempty) (f : ι → ℝ) :
    ∃ r : ℝ, s.fold max (⊥ : EReal) (fun k => (f k : EReal)) = (r : EReal) := by
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-- The maximum of a row of reals is a real. -/
theorem rowMax_real (x : Fin 128 → ℝ) : ∃ m : ℝ, rowMax (fun k => (x k : EReal)) = (m : EReal) := by
  unfold rowMax
  rw [ofBits_negInf]
  exact fold_max_real _ Finset.univ_nonempty x

/-- A row of real logits has a real softmax. -/
theorem softmax_real (x : Fin 128 → EReal) (hx : ∀ k, ∃ r : ℝ, x k = (r : EReal)) (k : Fin 128) :
    ∃ r : ℝ, softmax x k = (r : EReal) := by
  choose xr hxr using hx
  obtain rfl : x = fun k => (xr k : EReal) := funext hxr
  obtain ⟨m, hm⟩ := rowMax_real xr
  have hexp : ∀ k', expShift (fun k => (xr k : EReal)) k' = ((Real.exp (xr k' - m) : ℝ) : EReal) := by
    intro k'
    unfold expShift
    rw [hm, ← EReal.coe_sub, Ideal.exp_coe]
  have hne : (∑ k' : Fin 128, Real.exp (xr k' - m)) ≠ 0 :=
    (Finset.sum_pos (fun k' _ => Real.exp_pos _) Finset.univ_nonempty).ne'
  unfold softmax
  simp only [hexp, coe_finset_sum]
  rw [Ideal.div_coe hne, ← EReal.coe_mul]
  exact ⟨_, rfl⟩

end Cert.SoftmaxCov

end
-- ==== Proof.Finite.lean ====
/-
  From the precondition to real inputs.

  The precondition is the `i1` scalar `all (|x0| < +∞) ∧ all (|x1| < +∞)`: each `all` is a reduction by `and`, from the
  constant 1, over every axis of the array of comparisons `|x i| < +∞`, and the two results are joined by `and`.
  If the scalar is 1 then both reductions are 1, so every comparison is 1. On the extended reals `|x|` is `max x (−x)`
  and the word `0x7F800000` of +∞ denotes `⊤`; `max x (−x) < ⊤` excludes `x = ⊥` and `x = ⊤` (both have `|x| = ⊤`),
  and what is left of the extended reals is the coerced reals.
-/
import proofs.«174759_j18476949308045_2_alg».proof.Pre_finite_inputs
import Idealize.ShloMosaic.Lib.ReduceAll
import Idealize.ShloMosaic.PureOps.Ideal
import Idealize.ShloMosaic.Lib.ValueIdx

noncomputable section

namespace Cert.Finite

open Idealize.ShloMosaic

/-- The word of +∞ denotes `⊤`. -/
theorem ofBits_posInf : Ideal.ofBits .f32 0x7F800000#32 = (⊤ : EReal) := by
  simp [Ideal.ofBits, Ideal.ieee]

/-- An extended real whose absolute value `max x (−x)` is below `⊤` is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A comparison `|x| < +∞` that came out 1 says `x` is a real. -/
theorem real_of_cmp (x : Ideal .f32)
    (h : FloatOps.cmpf (F := Ideal) .olt (FloatOps.hostAbsf (F := Ideal) x)
      (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [ofBits_posInf] at h'
  by_cases hlt : max x (-x) < ⊤
  · exact real_of_abs_lt_top x hlt
  · rw [decide_eq_false hlt] at h'
    exact absurd h' (by decide)

/-- The scalar shape has one index. -/
instance subsingleton_scalarIdx : Subsingleton Cert.Pre_finite_inputs.S_.Idx :=
  ⟨fun _ _ => funext fun d => d.elim0⟩

/-- Under the precondition every logit and every covariance entry is a real number. -/
theorem inputs_real [hP : Cert.Pre_finite_inputs.Facts]
    (x0 : FVec Ideal Cert.Pre_finite_inputs.S8192x128 .f32) (x1 : FVec Ideal Cert.Pre_finite_inputs.S8192x128x128 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  change IntOp.andi _ _ = 1#1 at h0
  obtain ⟨ha, hb⟩ := IntOp.andi_eq_one.1 h0
  refine ⟨fun i => ?_, fun i => ?_⟩
  · exact real_of_cmp (x0 i) (Host.reduce_andi_all _ _ _ _ _ ha i)
  · exact real_of_cmp (x1 i) (Host.reduce_andi_all _ _ _ _ _ hb i)

end Cert.Finite

end
-- ==== Proof.KernelBlock.lean ====
/-
  What the kernel's body leaves in one block of each of its two outputs, read at an index, at the exact
  (extended-real) values, in the terms of the specification.

  The body loads a block `P0` of 128 rows of 128 logits and a block `P1` of 128 covariances (128 × 128 each).
  Per row `r` it takes the maximum `m r` of the row (a fold of `max` from −∞), the shifted exponentials
  `e r k = exp (P0 r k − m r)`, their sum over `k`, and the quotient `p r k = e r k / ∑ k', e r k'`: the row's
  softmax, which is the first output's block (`block_probs`). Then, per row, three contractions of the covariance
  with `p`:
    `s r i = ∑ k, P1 r i k · p r k`   (over the LAST axis),
    `t r l = ∑ k, P1 r k l · p r k`   (over the MIDDLE axis),
    `a r   = ∑ j, p r j · s r j`,
  and the second output's block is `(p r i · p r l) · (((P1 r i l − t r l) − s r i) + a r)`: the closed form of the
  propagated covariance, of row `r`'s softmax and covariance `r` (`block_cov`).

  Each reduction over one axis is read as the sum (or the fold of `max`) over that axis's coordinate, the
  reduced index with the coordinate put back in; each "reshape to a unit axis, then broadcast along it" is read
  as the operand at the index without that axis. The operations' order in the body is the specification's, so no
  law of the extended reals is used at all: every step is the reading of one operation at an index.
-/
import proofs.«174759_j18476949308045_2_alg».proof.Proof.Spec
import proofs.«174759_j18476949308045_2_alg».proof.Proof.Gen.KernelIdeal.Value
import Idealize.ShloMosaic.PureOps.Ideal.Laws
import Idealize.ShloMosaic.Lib.Pipeline.Value
import Idealize.ShloMosaic.Lib.ValueIdx

noncomputable section

namespace Cert.KernelIdeal.BlockValue

open Cert.KernelIdeal Cert.KernelIdeal.Gen Cert.SoftmaxCov Idealize.ShloMosaic Idealize.ShloMosaic.ValueIdx

/-! ## Indices: a coordinate put back on a reduced axis, and the block index's coordinates picked out -/

/-- Over the row index `r`, coordinate `k` put back on axis 1 of a 128 × 128 block: the index `(r, k)`. -/
theorem lift_row (h : S128x128.Reduces [1] S128) (r k : Fin 128) : h.lift (ix1 r) k = ix2 r k := by
  funext a; apply Fin.ext
  match a with | ⟨0, _⟩ => rfl | ⟨1, _⟩ => rfl

/-- Over `(r, i)`, coordinate `k` put back on the LAST axis of a 128 × 128 × 128 block: `(r, i, k)`. -/
theorem lift_last (h : S128x128x128.Reduces [2] S128x128) (r i k : Fin 128) : h.lift (ix2 r i) k = ix3 r i k := by
  funext a; apply Fin.ext
  match a with | ⟨0, _⟩ => rfl | ⟨1, _⟩ => rfl | ⟨2, _⟩ => rfl

/-- Over `(r, l)`, coordinate `k` put back on the MIDDLE axis of a 128 × 128 × 128 block: `(r, k, l)`. -/
theorem lift_mid (h : S128x128x128.Reduces [1] S128x128) (r l k : Fin 128) : h.lift (ix2 r l) k = ix3 r k l := by
  funext a; apply Fin.ext
  match a with | ⟨0, _⟩ => rfl | ⟨1, _⟩ => rfl | ⟨2, _⟩ => rfl

/-- At `(r, k)` the first output reads the logits at `(r, k)` … -/
theorem ix2_0_ix2 (r k : Fin 128) : Value.ix2_0 (ix2 r k) = ix2 r k := by
  funext a; match a with | ⟨0, _⟩ => rfl | ⟨1, _⟩ => rfl
/-- … the row maxima at `r` … -/
theorem ix2_1_ix2 (r k : Fin 128) : Value.ix2_1 (ix2 r k) = ix1 r := by
  funext a; match a with | ⟨0, _⟩ => rfl
/-- … and the row sums at `r`. -/
theorem ix2_2_ix2 (r k : Fin 128) : Value.ix2_2 (ix2 r k) = ix1 r := by
  funext a; match a with | ⟨0, _⟩ => rfl

/-- At `(r, i, l)` the second output reads the logits at `(r, i)` (the factor `p r i`) … -/
theorem ix3_0_ix3 (r i l : Fin 128) : Value.ix3_0 (ix3 r i l) = ix2 r i := by
  funext a; match a with | ⟨0, _⟩ => rfl | ⟨1, _⟩ => rfl
/-- … with the row maxima at `r` … -/
theorem ix3_1_ix3 (r i l : Fin 128) : Value.ix3_1 (ix3 r i l) = ix1 r := by
  funext a; match a with | ⟨0, _⟩ => rfl
/-- … and the row sums at `r`; … -/
theorem ix3_2_ix3 (r i l : Fin 128) : Value.ix3_2 (ix3 r i l) = ix1 r := by
  funext a; match a with | ⟨0, _⟩ => rfl
/-- … the logits at `(r, l)` (the factor `p r l`) … -/
theorem ix3_3_ix3 (r i l : Fin 128) : Value.ix3_3 (ix3 r i l) = ix2 r l := by
  funext a; match a with | ⟨0, _⟩ => rfl | ⟨1, _⟩ => rfl
/-- … with the row maxima at `r` … -/
theorem ix3_4_ix3 (r i l : Fin 128) : Value.ix3_4 (ix3 r i l) = ix1 r := by
  funext a; match a with | ⟨0, _⟩ => rfl
/-- … and the row sums at `r`; … -/
theorem ix3_5_ix3 (r i l : Fin 128) : Value.ix3_5 (ix3 r i l) = ix1 r := by
  funext a; match a with | ⟨0, _⟩ => rfl
/-- … the covariance at `(r, i, l)`, … -/
theorem ix3_6_ix3 (r i l : Fin 128) : Value.ix3_6 (ix3 r i l) = ix3 r i l := by
  funext a; match a with | ⟨0, _⟩ => rfl | ⟨1, _⟩ => rfl | ⟨2, _⟩ => rfl
/-- … the contraction over the middle axis at `(r, l)`, … -/
theorem ix3_7_ix3 (r i l : Fin 128) : Value.ix3_7 (ix3 r i l) = ix2 r l := by
  funext a; match a with | ⟨0, _⟩ => rfl | ⟨1, _⟩ => rfl
/-- … the contraction over the last axis at `(r, i)`, … -/
theorem ix3_8_ix3 (r i l : Fin 128) : Value.ix3_8 (ix3 r i l) = ix2 r i := by
  funext a; match a with | ⟨0, _⟩ => rfl | ⟨1, _⟩ => rfl
/-- … and the scalar `a` at `r`. -/
theorem ix3_9_ix3 (r i l : Fin 128) : Value.ix3_9 (ix3 r i l) = ix1 r := by
  funext a; match a with | ⟨0, _⟩ => rfl

/-! ## A vector reshaped to a unit axis and broadcast along it, read at an index -/

section Layout
variable {α : Type}

/-- A vector over the rows, reshaped to a column [128, 1] and broadcast to [128, 128]: at `(r, k)` its entry `r`. -/
theorem col_apply (v : S128.Idx → α) (r k : Fin 128) :
    (broadcastTo S128x128 (shapeCast S128x1 v shapeCasts_S128_S128x1) broadcasts_S128x1_S128x128) (ix2 r k) = v (ix1 r) := by
  refine (broadcastTo_apply _ _ (ix2 r k) (ix2 r (0 : Fin 1)) (fun a => match a with
    | ⟨0, _⟩ => by show r.val = (if (128 : Nat) = 1 then 0 else r.val); rw [if_neg (by decide)]
    | ⟨1, _⟩ => by show 0 = (if (1 : Nat) = 1 then 0 else k.val); rw [if_pos rfl])).trans ?_
  exact shapeCast_apply _ _ (ix2 r (0 : Fin 1)) (ix1 r)
    (by rw [Shape.rowMajor_val_one, Shape.rowMajor_val_two]; show r.val = r.val * 1 + 0; omega)

/-- A [128, 128] array given a unit MIDDLE axis, [128, 1, 128], and broadcast to [128, 128, 128]: at `(r, i, k)` its
    entry `(r, k)`. -/
theorem mid_apply (v : S128x128.Idx → α) (r i k : Fin 128) :
    (broadcastTo S128x128x128 (shapeCast S128x1x128 v shapeCasts_S128x128_S128x1x128) broadcasts_S128x1x128_S128x128x128) (ix3 r i k)
      = v (ix2 r k) := by
  refine (broadcastTo_apply _ _ (ix3 r i k) (ix3 r (0 : Fin 1) k) (fun a => match a with
    | ⟨0, _⟩ => by show r.val = (if (128 : Nat) = 1 then 0 else r.val); rw [if_neg (by decide)]
    | ⟨1, _⟩ => by show 0 = (if (1 : Nat) = 1 then 0 else i.val); rw [if_pos rfl]
    | ⟨2, _⟩ => by show k.val = (if (128 : Nat) = 1 then 0 else k.val); rw [if_neg (by decide)])).trans ?_
  exact shapeCast_apply _ _ (ix3 r (0 : Fin 1) k) (ix2 r k)
    (by rw [Shape.rowMajor_val_two, Shape.rowMajor_val_three]; show r.val * 128 + k.val = (r.val * 1 + 0) * 128 + k.val; omega)

/-- A [128, 128] array given a unit LAST axis, [128, 128, 1], and broadcast to [128, 128, 128]: at `(r, i, k)` its
    entry `(r, i)`. -/
theorem last_apply (v : S128x128.Idx → α) (r i k : Fin 128) :
    (broadcastTo S128x128x128 (shapeCast S128x128x1 v shapeCasts_S128x128_S128x128x1) broadcasts_S128x128x1_S128x128x128) (ix3 r i k)
      = v (ix2 r i) := by
  refine (broadcastTo_apply _ _ (ix3 r i k) (ix3 r i (0 : Fin 1)) (fun a => match a with
    | ⟨0, _⟩ => by show r.val = (if (128 : Nat) = 1 then 0 else r.val); rw [if_neg (by decide)]
    | ⟨1, _⟩ => by show i.val = (if (128 : Nat) = 1 then 0 else i.val); rw [if_neg (by decide)]
    | ⟨2, _⟩ => by show 0 = (if (1 : Nat) = 1 then 0 else k.val); rw [if_pos rfl])).trans ?_
  exact shapeCast_apply _ _ (ix3 r i (0 : Fin 1)) (ix2 r i)
    (by rw [Shape.rowMajor_val_two, Shape.rowMajor_val_three]; show r.val * 128 + i.val = (r.val * 128 + i.val) * 1 + 0; omega)

end Layout

/-! ## The body's intermediate vectors, named -/

/-- The row maxima `m`: the fold of `max` from −∞ over each row of the logits block. -/
abbrev maxV (P0 : Vec Ideal S128x128 .f32) : FVec Ideal S128 .f32 :=
  multiReduction (F := Ideal) .maximumf [1] S128 P0 0xFF800000#32 reduces_S128x128_S128 (.inl rfl) rfl

/-- The shifted exponentials `e = exp (P0 − m)`, the maxima spread along each row. -/
abbrev expV (P0 : Vec Ideal S128x128 .f32) : FVec Ideal S128x128 .f32 :=
  exp (subf P0 (broadcastTo S128x128 (shapeCast S128x1 (maxV P0) shapeCasts_S128_S128x1) broadcasts_S128x1_S128x128))

/-- The row sums of the shifted exponentials. -/
abbrev sumV (P0 : Vec Ideal S128x128 .f32) : FVec Ideal S128 .f32 :=
  multiReduction (F := Ideal) .add [1] S128 (expV P0) 0x00000000#32 reduces_S128x128_S128 (.inl rfl) rfl

/-- The softmax block `p = e / sum`, the sums spread along each row. -/
abbrev pV (P0 : Vec Ideal S128x128 .f32) : FVec Ideal S128x128 .f32 :=
  divf (expV P0) (broadcastTo S128x128 (shapeCast S128x1 (sumV P0) shapeCasts_S128_S128x1) broadcasts_S128x1_S128x128)

/-- `s r i = ∑ k, P1 r i k · p r k`: the product with `p` spread along the middle axis, summed over the last. -/
abbrev sV (P0 : Vec Ideal S128x128 .f32) (P1 : Vec Ideal S128x128x128 .f32) : FVec Ideal S128x128 .f32 :=
  multiReduction (F := Ideal) .add [2] S128x128
    (mulf P1 (broadcastTo S128x128x128 (shapeCast S128x1x128 (pV P0) shapeCasts_S128x128_S128x1x128) broadcasts_S128x1x128_S128x128x128))
    0x00000000#32 reduces_S128x128x128_S128x128 (.inl rfl) rfl

/-- `t r l = ∑ k, P1 r k l · p r k`: the product with `p` spread along the last axis, summed over the middle. -/
abbrev tV (P0 : Vec Ideal S128x128 .f32) (P1 : Vec Ideal S128x128x128 .f32) : FVec Ideal S128x128 .f32 :=
  multiReduction (F := Ideal) .add [1] S128x128
    (mulf P1 (broadcastTo S128x128x128 (shapeCast S128x128x1 (pV P0) shapeCasts_S128x128_S128x128x1) broadcasts_S128x128x1_S128x128x128))
    0x00000000#32 reduces_S128x128x128_S128x128_2 (.inl rfl) rfl

/-- `a r = ∑ j, p r j · s r j`. -/
abbrev aV (P0 : Vec Ideal S128x128 .f32) (P1 : Vec Ideal S128x128x128 .f32) : FVec Ideal S128 .f32 :=
  multiReduction (F := Ideal) .add [1] S128 (mulf (pV P0) (sV P0 P1)) 0x00000000#32 reduces_S128x128_S128 (.inl rfl) rfl

/-! ## Each of them at an index, in the specification's terms -/

/-- Row `r`'s maximum is the specification's `rowMax` of that row. -/
theorem maxV_apply (P0 : Vec Ideal S128x128 .f32) (r : Fin 128) :
    maxV P0 (ix1 r) = rowMax (fun k => P0 (ix2 r k)) := by
  refine (Ideal.multiReduction_maximumf_single P0 _ _ _ _ _).trans ?_
  have e : (P0 ∘ (reduces_S128x128_S128).lift (ix1 r)) = fun k : Fin 128 => P0 (ix2 r k) :=
    funext fun k => congrArg P0 (lift_row _ r k)
  rw [e]; rfl

/-- The shifted exponential at `(r, k)` is the specification's `expShift` of row `r` at `k`. -/
theorem expV_apply (P0 : Vec Ideal S128x128 .f32) (r k : Fin 128) :
    expV P0 (ix2 r k) = expShift (fun k' => P0 (ix2 r k')) k := by
  show Ideal.exp (P0 (ix2 r k)
      - (broadcastTo S128x128 (shapeCast S128x1 (maxV P0) shapeCasts_S128_S128x1) broadcasts_S128x1_S128x128) (ix2 r k))
    = Ideal.exp (P0 (ix2 r k) - rowMax (fun k' => P0 (ix2 r k')))
  rw [col_apply, maxV_apply]

/-- Row `r`'s sum is the sum of the row's `expShift`s. -/
theorem sumV_apply (P0 : Vec Ideal S128x128 .f32) (r : Fin 128) :
    sumV P0 (ix1 r) = ∑ k' : Fin 128, expShift (fun k'' => P0 (ix2 r k'')) k' := by
  refine (Ideal.multiReduction_add_single (expV P0) _ _ _ _ _).trans ?_
  exact Finset.sum_congr rfl fun k _ => (congrArg (expV P0) (lift_row _ r k)).trans (expV_apply P0 r k)

/-- The quotient of the shifted exponential at `(r, k)` by row `r`'s sum is the row's softmax at `k`. -/
theorem softmax_scalar (P0 : Vec Ideal S128x128 .f32) (r k : Fin 128) :
    Ideal.div (Ideal.exp (P0 (ix2 r k) - maxV P0 (ix1 r))) (sumV P0 (ix1 r)) = softmax (fun k' => P0 (ix2 r k')) k := by
  rw [maxV_apply, sumV_apply]; rfl

/-- The softmax block at `(r, k)` is row `r`'s softmax at `k`. -/
theorem pV_apply (P0 : Vec Ideal S128x128 .f32) (r k : Fin 128) :
    pV P0 (ix2 r k) = softmax (fun k' => P0 (ix2 r k')) k := by
  show Ideal.div (expV P0 (ix2 r k))
      ((broadcastTo S128x128 (shapeCast S128x1 (sumV P0) shapeCasts_S128_S128x1) broadcasts_S128x1_S128x128) (ix2 r k))
    = Ideal.div (expShift (fun k' => P0 (ix2 r k')) k) (∑ k' : Fin 128, expShift (fun k'' => P0 (ix2 r k'')) k')
  rw [col_apply, expV_apply, sumV_apply]

/-- `s` at `(r, i)`: covariance `r`'s row `i` against the softmax. -/
theorem sV_apply (P0 : Vec Ideal S128x128 .f32) (P1 : Vec Ideal S128x128x128 .f32) (r i : Fin 128) :
    sV P0 P1 (ix2 r i) = ∑ k : Fin 128, P1 (ix3 r i k) * softmax (fun k' => P0 (ix2 r k')) k := by
  refine (Ideal.multiReduction_add_single _ _ _ _ _ _).trans ?_
  refine Finset.sum_congr rfl fun (k : Fin 128) _ => ?_
  rw [lift_last _ r i k]
  show P1 (ix3 r i k) * (broadcastTo S128x128x128 (shapeCast S128x1x128 (pV P0) shapeCasts_S128x128_S128x1x128)
      broadcasts_S128x1x128_S128x128x128) (ix3 r i k) = _
  rw [mid_apply, pV_apply]

/-- `t` at `(r, l)`: covariance `r`'s column `l` against the softmax. -/
theorem tV_apply (P0 : Vec Ideal S128x128 .f32) (P1 : Vec Ideal S128x128x128 .f32) (r l : Fin 128) :
    tV P0 P1 (ix2 r l) = ∑ k : Fin 128, P1 (ix3 r k l) * softmax (fun k' => P0 (ix2 r k')) k := by
  refine (Ideal.multiReduction_add_single _ _ _ _ _ _).trans ?_
  refine Finset.sum_congr rfl fun (k : Fin 128) _ => ?_
  rw [lift_mid _ r l k]
  show P1 (ix3 r k l) * (broadcastTo S128x128x128 (shapeCast S128x128x1 (pV P0) shapeCasts_S128x128_S128x128x1)
      broadcasts_S128x128x1_S128x128x128) (ix3 r k l) = _
  rw [last_apply, pV_apply]

/-- `a` at `r`: the softmax against `s`. -/
theorem aV_apply (P0 : Vec Ideal S128x128 .f32) (P1 : Vec Ideal S128x128x128 .f32) (r : Fin 128) :
    aV P0 P1 (ix1 r)
      = ∑ j : Fin 128, softmax (fun k' => P0 (ix2 r k')) j * ∑ k : Fin 128, P1 (ix3 r j k) * softmax (fun k' => P0 (ix2 r k')) k := by
  refine (Ideal.multiReduction_add_single _ _ _ _ _ _).trans ?_
  refine Finset.sum_congr rfl fun (j : Fin 128) _ => ?_
  rw [lift_row _ r j]
  show pV P0 (ix2 r j) * sV P0 P1 (ix2 r j) = _
  rw [pV_apply, sV_apply]

/-! ## The two blocks -/

/-- Row r of the first output's block is the softmax of row r of the logits block. -/
theorem block_probs (P0 : Vec Ideal S128x128 .f32) (r k : Fin 128) :
    Cert.KernelIdeal.Value.E2 (F := Ideal) P0 (ix2 r k) = softmax (fun k' => P0 (ix2 r k')) k := by
  show Ideal.div (Ideal.exp (P0 (Value.ix2_0 (ix2 r k)) - maxV P0 (Value.ix2_1 (ix2 r k)))) (sumV P0 (Value.ix2_2 (ix2 r k))) = _
  rw [ix2_0_ix2, ix2_1_ix2, ix2_2_ix2]
  exact softmax_scalar P0 r k

/-- Slab r of the second output's block is the closed form of the propagated covariance, of row r's softmax and slab r
    of the covariance block. -/
theorem block_cov (P0 : Vec Ideal S128x128 .f32) (P1 : Vec Ideal S128x128x128 .f32) (r i l : Fin 128) :
    Cert.KernelIdeal.Value.E3 (F := Ideal) P0 P1 (ix3 r i l)
      = covClosed (softmax (fun k => P0 (ix2 r k))) (fun j k => P1 (ix3 r j k)) i l := by
  show (Ideal.div (Ideal.exp (P0 (Value.ix3_0 (ix3 r i l)) - maxV P0 (Value.ix3_1 (ix3 r i l)))) (sumV P0 (Value.ix3_2 (ix3 r i l)))
        * Ideal.div (Ideal.exp (P0 (Value.ix3_3 (ix3 r i l)) - maxV P0 (Value.ix3_4 (ix3 r i l)))) (sumV P0 (Value.ix3_5 (ix3 r i l))))
      * (((P1 (Value.ix3_6 (ix3 r i l)) - tV P0 P1 (Value.ix3_7 (ix3 r i l))) - sV P0 P1 (Value.ix3_8 (ix3 r i l)))
        + aV P0 P1 (Value.ix3_9 (ix3 r i l))) = _
  rw [ix3_0_ix3, ix3_1_ix3, ix3_2_ix3, ix3_3_ix3, ix3_4_ix3, ix3_5_ix3, ix3_6_ix3, ix3_7_ix3, ix3_8_ix3, ix3_9_ix3,
    softmax_scalar, softmax_scalar, tV_apply, sV_apply, aV_apply]
  rfl

end Cert.KernelIdeal.BlockValue

end
-- ==== Proof.KernelArray.lean ====
/-
  From blocks to whole arrays. The grid has 64 points; point `t` loads rows `128 t … 128 t + 127` of the logits
  and of the covariances and writes the same rows of both outputs. The body's result on a block depends, row by
  row, only on that row of the two input blocks (the softmax and the closed form are per-row), so what point `t`
  writes back is block `t` of one whole-array function of the argument arrays; the 64 blocks cover every index,
  so after the run each output array is that function.
-/
import proofs.«174759_j18476949308045_2_alg».proof.Proof.Gen.KernelIdeal.Value
import proofs.«174759_j18476949308045_2_alg».proof.Proof.Spec
import proofs.«174759_j18476949308045_2_alg».proof.Proof.KernelBlock
import Idealize.ShloMosaic.Lib.ValueIdx
import Idealize.ShloMosaic.Lib.Pipeline.Value

noncomputable section

namespace Cert.KernelIdeal.ArrayValue

open Cert.KernelIdeal Cert.KernelIdeal.Gen Cert.KernelIdeal.Value Cert.KernelIdeal.BlockValue Cert.SoftmaxCov
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Grid point `t` works on batch rows `128 t … 128 t + 127`: every window's block index is `(t, 0)` or `(t, 0, 0)`
    (decided over the 64 points). -/
theorem block_index : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch row that row `r` of point `t`'s blocks is. -/
def batchRow (t : Fin cfg0.N) (r : Fin 128) : Fin 8192 :=
  ⟨t.val * 128 + r.val, by have := t.isLt; have := r.isLt; have h : cfg0.N = 64 := rfl; omega⟩

theorem batchRow_val (t : Fin cfg0.N) (r : Fin 128) : (batchRow t r).val = t.val * 128 + r.val := rfl

theorem origin2 : (![0, 0] : Fin 2 → Nat) = fun _ => 0 := funext fun a => by fin_cases a <;> rfl
theorem origin3 : (![0, 0, 0] : Fin 3 → Nat) = fun _ => 0 := funext fun a => by fin_cases a <;> rfl

/-- Entry `(r, k)` of point `t`'s logits block is the logits array's entry `(128 t + r, k)`. -/
theorem logits_block (c : Dev nD) (t : Fin cfg0.N) (r k : Fin 128) :
    iblk m c 0 t (ix2 r k) = V m c main_arg0 (ix2 (batchRow t r) k) := by
  obtain ⟨e0, e1, -⟩ := block_index t
  show V m c main_arg0 (((cfg0.win 0).blk t).view.emb (ix2 r k)) = V m c main_arg0 (ix2 (batchRow t r) k)
  refine congrArg _ ?_
  funext a; apply Fin.ext
  match a with
  | ⟨0, _⟩ => show win0_0.index t (0 : Fin 2) * 128 + 1 * r.val = t.val * 128 + r.val; omega
  | ⟨1, _⟩ => show win0_0.index t (1 : Fin 2) * 128 + 1 * k.val = k.val; omega

/-- Entry `(r, j, k)` of point `t`'s covariance block is the covariance array's entry `(128 t + r, j, k)`. -/
theorem covs_block (c : Dev nD) (t : Fin cfg0.N) (r j k : Fin 128) :
    iblk m c 1 t (ix3 r j k) = V m c main_arg1 (ix3 (batchRow t r) j k) := by
  obtain ⟨-, -, e0, e1, e2, -⟩ := block_index t
  show V m c main_arg1 (((cfg0.win 1).blk t).view.emb (ix3 r j k)) = V m c main_arg1 (ix3 (batchRow t r) j k)
  refine congrArg _ ?_
  funext a; apply Fin.ext
  match a with
  | ⟨0, _⟩ => show win0_1.index t (0 : Fin 3) * 128 + 1 * r.val = t.val * 128 + r.val; omega
  | ⟨1, _⟩ => show win0_1.index t (1 : Fin 3) * 128 + 1 * j.val = j.val; omega
  | ⟨2, _⟩ => show win0_1.index t (2 : Fin 3) * 128 + 1 * k.val = k.val; omega

/-- Where entry `(r, k)` of point `t`'s first output block lands in the array. -/
theorem probs_emb (t : Fin cfg0.N) (r k : Fin 128) :
    ((cfg0.win 2).blk t).view.emb (ix2 r k) = ix2 (batchRow t r) k := by
  obtain ⟨-, -, -, -, -, e0, e1, -⟩ := block_index t
  funext a; apply Fin.ext
  match a with
  | ⟨0, _⟩ => show win0_2.index t (0 : Fin 2) * 128 + 1 * r.val = t.val * 128 + r.val; omega
  | ⟨1, _⟩ => show win0_2.index t (1 : Fin 2) * 128 + 1 * k.val = k.val; omega

/-- Where entry `(r, i, l)` of point `t`'s second output block lands in the array. -/
theorem covs_emb (t : Fin cfg0.N) (r i l : Fin 128) :
    ((cfg0.win 3).blk t).view.emb (ix3 r i l) = ix3 (batchRow t r) i l := by
  obtain ⟨-, -, -, -, -, -, -, e0, e1, e2⟩ := block_index t
  funext a; apply Fin.ext
  match a with
  | ⟨0, _⟩ => show win0_3.index t (0 : Fin 3) * 128 + 1 * r.val = t.val * 128 + r.val; omega
  | ⟨1, _⟩ => show win0_3.index t (1 : Fin 3) * 128 + 1 * i.val = i.val; omega
  | ⟨2, _⟩ => show win0_3.index t (2 : Fin 3) * 128 + 1 * l.val = l.val; omega

/-- WHAT POINT `t` WRITES BACK to the first output is block `t` of the rows' softmax. -/
theorem flushed_probs (c : Dev nD) (t : Fin cfg0.N) :
    (dats m 0 c).flushed 2 t = ((cfg0.win 2).blk t).view.read (Elt Ideal) (probs (V m c main_arg0)) := by
  rw [flushed2]
  unfold out0_2
  simp only [View.ld_unit_zero (S := S128x128) origin2]
  funext y
  obtain ⟨r, k, rfl⟩ : ∃ (r k : Fin 128), y = ix2 r k := ⟨y 0, y 1, eq_ix2 y⟩
  refine (canon2_eq (F := Ideal) (iblk m c 0 t) (ix2 r k)).trans ?_
  refine (block_probs (iblk m c 0 t) r k).trans ?_
  show _ = probs (V m c main_arg0) (((cfg0.win 2).blk t).view.emb (ix2 r k))
  rw [probs_emb]
  show _ = softmax (rowOf (V m c main_arg0) (batchRow t r)) k
  refine congrArg (fun x => softmax x k) ?_
  funext k'
  exact logits_block m c t r k'

/-- WHAT POINT `t` WRITES BACK to the second output is block `t` of the closed-form covariances. -/
theorem flushed_covs (c : Dev nD) (t : Fin cfg0.N) :
    (dats m 0 c).flushed 3 t
      = ((cfg0.win 3).blk t).view.read (Elt Ideal) (covOut (V m c main_arg0) (V m c main_arg1)) := by
  rw [flushed3]
  unfold out0_3
  simp only [View.ld_unit_zero (S := S128x128) origin2, View.ld_unit_zero (S := S128x128x128) origin3]
  funext y
  obtain ⟨r, i, l, rfl⟩ : ∃ (r i l : Fin 128), y = ix3 r i l := ⟨y 0, y 1, y 2, eq_ix3 y⟩
  refine (canon3_eq (F := Ideal) (iblk m c 0 t) (iblk m c 1 t) (ix3 r i l)).trans ?_
  refine (block_cov (iblk m c 0 t) (iblk m c 1 t) r i l).trans ?_
  show _ = covOut (V m c main_arg0) (V m c main_arg1) (((cfg0.win 3).blk t).view.emb (ix3 r i l))
  rw [covs_emb]
  show _ = covClosed (softmax (rowOf (V m c main_arg0) (batchRow t r))) (slabOf (V m c main_arg1) (batchRow t r)) i l
  have e0 : (fun k => iblk m c 0 t (ix2 r k)) = rowOf (V m c main_arg0) (batchRow t r) :=
    funext fun k => logits_block m c t r k
  have e1 : (fun j k => iblk m c 1 t (ix3 r j k)) = slabOf (V m c main_arg1) (batchRow t r) :=
    funext fun j => funext fun k => covs_block m c t r j k
  rw [e0, e1]

/-- An index of the first output is in point `t`'s block iff each coordinate is in the block's range on its axis. -/
theorem mem_probs_block (t : Fin cfg0.N) (i : S8192x128.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0_0).slice (win0_2.rect t)).set ↔ _
  rw [View.set_slice_whole, Rect.mem_set_unit]
  exact Iff.rfl

/-- The same for the second output. -/
theorem mem_covs_block (t : Fin cfg0.N) (i : S8192x128x128.Idx) :
    i ∈ ((cfg0.win 3).blk t).view.set ↔ ∀ a : Fin 3, win0_3.index t a * S128x128x128.size a ≤ (i a).val
      ∧ (i a).val < win0_3.index t a * S128x128x128.size a + S128x128x128.size a := by
  show i ∈ ((View.whole main_v0_1).slice (win0_3.rect t)).set ↔ _
  rw [View.set_slice_whole, Rect.mem_set_unit]
  exact Iff.rfl

/-- Batch row `b` is written by grid point `b / 128`: every index of the first output is in some point's block. -/
theorem probs_covered (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 64 := rfl
  obtain ⟨t, ht⟩ : ∃ t : Fin cfg0.N, t.val = (i 0).val / 128 := ⟨⟨(i 0).val / 128, by omega⟩, rfl⟩
  obtain ⟨-, -, -, -, -, e0, e1, -⟩ := block_index t
  refine ⟨t, flush0_2 t, ?_⟩
  rw [mem_probs_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 128 ≤ (i 1).val ∧ (i 1).val < win0_2.index t (1 : Fin 2) * 128 + 128
    omega

/-- The same for the second output. -/
theorem covs_covered (i : S8192x128x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hi2 : (i 2).val < 128 := (i 2).isLt
  have hN : cfg0.N = 64 := rfl
  obtain ⟨t, ht⟩ : ∃ t : Fin cfg0.N, t.val = (i 0).val / 128 := ⟨⟨(i 0).val / 128, by omega⟩, rfl⟩
  obtain ⟨-, -, -, -, -, -, -, e0, e1, e2⟩ := block_index t
  refine ⟨t, flush0_3 t, ?_⟩
  rw [mem_covs_block]
  intro a
  match a with
  | ⟨0, _⟩ =>
    show win0_3.index t (0 : Fin 3) * 128 ≤ (i 0).val ∧ (i 0).val < win0_3.index t (0 : Fin 3) * 128 + 128
    omega
  | ⟨1, _⟩ =>
    show win0_3.index t (1 : Fin 3) * 128 ≤ (i 1).val ∧ (i 1).val < win0_3.index t (1 : Fin 3) * 128 + 128
    omega
  | ⟨2, _⟩ =>
    show win0_3.index t (2 : Fin 3) * 128 ≤ (i 2).val ∧ (i 2).val < win0_3.index t (2 : Fin 3) * 128 + 128
    omega

/-- THE FIRST OUTPUT after the run: every row's softmax. -/
theorem final_probs (c : Dev nD) :
    (dats m 0 c).arrAt 2 cfg0.N = probs (m ((c : Thread nD τ).loc main_arg0)) :=
  (dats m 0 c).arrAt_eq_of_cover 2 (probs (V m c main_arg0)) (fun t _ => flushed_probs m c t) probs_covered

/-- THE SECOND OUTPUT after the run: every row's propagated covariance in closed form. -/
theorem final_covs (c : Dev nD) :
    (dats m 0 c).arrAt 3 cfg0.N
      = covOut (m ((c : Thread nD τ).loc main_arg0)) (m ((c : Thread nD τ).loc main_arg1)) :=
  (dats m 0 c).arrAt_eq_of_cover 3 (covOut (V m c main_arg0) (V m c main_arg1)) (fun t _ => flushed_covs m c t) covs_covered

/-- The kernel's run with both results at their functions of the arguments, the arguments unchanged. -/
theorem run : θ_run defs (onTc (τ := τ) (main (F := Ideal))) ⟨m, fun _ => 0, ρ⟩ fun r => ∀ c : Dev nD,
      r.2.mem ((c : Thread nD τ).loc main_v0_0) = probs (m ((c : Thread nD τ).loc main_arg0))
      ∧ r.2.mem ((c : Thread nD τ).loc main_v0_1)
          = covOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_probs m c), (h c).2.1.trans (final_covs m c),
      (h c).2.2.1, (h c).2.2.2⟩)
    (run_blocks m ρ)

end Cert.KernelIdeal.ArrayValue

end
-- ==== Proof.LibConcatCols.lean ====
/-
  Matrices laid side by side, read at an entry.

  Two or three matrices with the same number of rows, joined along the column axis, form one matrix. Its entry at row
  `a` and column `j` belongs to the piece whose span of columns holds `j`, and is that piece's entry at row `a` and at the
  column `j` less the widths of the pieces before it.
-/
import Idealize.ShloMosaic.Lib.ValueIdx
import Idealize.ShloMosaic.Lib.Pipeline.Value
noncomputable section
namespace Cert.ConcatCols
open Idealize.ShloMosaic Idealize.ShloMosaic.ValueIdx

variable {α : Type} {A B0 B1 B2 T : Nat}

/-- Two pieces: a column inside the first piece's width reads the first piece at that column. -/
theorem pair_left (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩] h (ix2 a j) = x0 (ix2 a b) :=
  concatenate_pair_apply_left 1 x0 x1 h (ix2 a j) rfl (ix2 a b) (fun c => match c with
    | ⟨0, _⟩ => rfl
    | ⟨1, _⟩ => hj.symm)

/-- Two pieces: a column past the first piece's width reads the second piece at the column less that width. -/
theorem pair_right (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩] h (ix2 a j) = x1 (ix2 a b) :=
  concatenate_pair_apply_right 1 x0 x1 h (ix2 a j) rfl rfl (ix2 a b) (fun c hc => match c, hc with
    | ⟨0, _⟩, _ => rfl
    | ⟨1, _⟩, hc => absurd rfl hc)
    (by show b.val + B0 = j.val; omega)

/-- Three pieces: a column inside the first piece's width reads the first piece at that column. -/
theorem triple_fst (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩, ⟨⟨2, ![A, B2]⟩, x2⟩] h (ix2 a j) = x0 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 0 (by show 0 < 3; omega) ⟨2, ![A, B0]⟩ x0 rfl rfl 0 rfl (ix2 a b)
    (fun c hc => match c, hc with
      | ⟨0, _⟩, _ => rfl
      | ⟨1, _⟩, hc => absurd rfl hc)
    (by show 0 + b.val = j.val; omega)

/-- Three pieces: a column in the second piece's span reads the second piece at the column less the first width. -/
theorem triple_snd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩, ⟨⟨2, ![A, B2]⟩, x2⟩] h (ix2 a j) = x1 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 1 (by show 1 < 3; omega) ⟨2, ![A, B1]⟩ x1 rfl rfl B0 rfl (ix2 a b)
    (fun c hc => match c, hc with
      | ⟨0, _⟩, _ => rfl
      | ⟨1, _⟩, hc => absurd rfl hc)
    (by show B0 + b.val = j.val; omega)

/-- Three pieces: a column in the third piece's span reads the third piece at the column less the first two widths. -/
theorem triple_thd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B2) (j : Fin T)
    (hj : j.val = B0 + B1 + b.val) :
    concatenate ⟨2, ![A, T]⟩ 1 [⟨⟨2, ![A, B0]⟩, x0⟩, ⟨⟨2, ![A, B1]⟩, x1⟩, ⟨⟨2, ![A, B2]⟩, x2⟩] h (ix2 a j) = x2 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 2 (by show 2 < 3; omega) ⟨2, ![A, B2]⟩ x2 rfl rfl (B0 + B1) rfl (ix2 a b)
    (fun c hc => match c, hc with
      | ⟨0, _⟩, _ => rfl
      | ⟨1, _⟩, hc => absurd rfl hc)
    (by show B0 + B1 + b.val = j.val; omega)

end Cert.ConcatCols
-- ==== Proof.LibScatterWindow.lean ====
/-
  A window written into a matrix at a fixed corner, read at an entry.

  `x.at[r0 : r0 + P, c0 : c0 + Q].set(u)` lowers to a scatter with ONE index vector `[r0, c0]`: both axes of the update
  are window axes, none is inserted, and component `a` of the index vector is the window's start on axis `a`. The
  scatter visits the update's entries in row-major order, and entry `(p, q)` replaces the operand's entry at
  `(r0 + p, c0 + q)`. Distinct entries of the update land on distinct entries of the operand, so when the window lies
  inside the operand the result at `(a, b)` is the update's entry `(a − r0, b − c0)` where `(a, b)` is inside the
  window and the operand's own entry elsewhere.
-/
import Idealize.ShloMosaic.PureOps.Ideal
import Idealize.ShloMosaic.Lib.ValueIdx

noncomputable section

namespace Cert.Lib.ScatterWindow

open Idealize.ShloMosaic Idealize.ShloMosaic.ValueIdx

/-- The dimension numbers of `x.at[r0 : r0 + P, c0 : c0 + Q].set(u)` for a matrix operand `[A, B]`, one index vector
    `[2]` and an update `[P, Q]`. -/
abbrev winDims (A B P Q : Nat) (wf : ScatterDims.WF ⟨2, ![A, B]⟩ ⟨1, ![2]⟩ ⟨2, ![P, Q]⟩ [0, 1] [] [0, 1] 0) :
    ScatterDims ⟨2, ![A, B]⟩ ⟨1, ![2]⟩ ⟨2, ![P, Q]⟩ where
  updateWindowDims := [0, 1]
  insertedWindowDims := []
  scatterDimsToOperandDims := [0, 1]
  indexVectorDim := 0
  wf := wf

/-! ## A fold whose steps each change at most one entry -/

section Fold

variable {ι α β : Type}

/-- A fold none of whose steps changes entry `i'` leaves entry `i'` as it was at the start. -/
theorem foldl_entry_miss (step : (ι → α) → β → (ι → α)) (l : List β) (r : ι → α) (i' : ι)
    (h : ∀ m ∈ l, ∀ r, step r m i' = r i') : (l.foldl step r) i' = r i' := by
  induction l generalizing r with
  | nil => rfl
  | cons m l ih =>
    rw [List.foldl_cons, ih _ (fun k hk => h k (List.mem_cons_of_mem _ hk))]
    exact h m List.mem_cons_self r

/-- If one step `n0` of the list sets entry `i'` to `val` whatever was there, and every other step leaves entry `i'`
    alone, the fold leaves `val` at `i'`. -/
theorem foldl_entry_hit (step : (ι → α) → β → (ι → α)) (l : List β) (r : ι → α) (i' : ι) (n0 : β) (val : α)
    (hmem : n0 ∈ l) (hhit : ∀ r, step r n0 i' = val) (hmiss : ∀ m ∈ l, m ≠ n0 → ∀ r, step r m i' = r i') :
    (l.foldl step r) i' = val := by
  induction l generalizing r with
  | nil => exact absurd hmem List.not_mem_nil
  | cons m l ih =>
    rw [List.foldl_cons]
    by_cases hn : n0 ∈ l
    · exact ih _ hn (fun k hk => hmiss k (List.mem_cons_of_mem _ hk))
    · have hm : n0 = m := by
        rcases List.mem_cons.1 hmem with h | h
        · exact h
        · exact absurd h hn
      subst hm
      rw [foldl_entry_miss step l _ i'
        (fun k hk => hmiss k (List.mem_cons_of_mem _ hk) (fun e => hn (e ▸ hk)))]
      exact hhit r

end Fold

/-! ## Where an entry of the update lands -/

section Land

variable {A B P Q w : Nat} (wf : ScatterDims.WF ⟨2, ![A, B]⟩ ⟨1, ![2]⟩ ⟨2, ![P, Q]⟩ [0, 1] [] [0, 1] 0)

/-- On the row axis the window starts at the first component of the index vector, whatever the update entry is. -/
theorem start0 (j : (⟨2, ![P, Q]⟩ : Shape).Idx) (idx : IVec ⟨1, ![2]⟩ w) :
    (winDims A B P Q wf).start j idx 0 = (idx (ix1 (0 : Fin 2))).toInt := by
  unfold ScatterDims.start
  rw [dif_pos (by simp)]
  congr 2
  funext b; refine Fin.ext ?_; match b with | ⟨0, _⟩ => rfl

/-- On the column axis the window starts at the second component of the index vector, whatever the update entry is. -/
theorem start1 (j : (⟨2, ![P, Q]⟩ : Shape).Idx) (idx : IVec ⟨1, ![2]⟩ w) :
    (winDims A B P Q wf).start j idx 1 = (idx (ix1 (1 : Fin 2))).toInt := by
  unfold ScatterDims.start
  rw [dif_pos (by simp)]
  congr 2
  funext b; refine Fin.ext ?_; match b with | ⟨0, _⟩ => rfl

/-- The offset of update entry `j` inside the window on the row axis is its row coordinate. -/
theorem window0 (j : (⟨2, ![P, Q]⟩ : Shape).Idx) :
    (winDims A B P Q wf).window j 0 = (j 0).val := by
  unfold ScatterDims.window
  rw [dif_pos (by simp [ScatterDims.sKept, Shape.kept])]
  rfl

/-- The offset of update entry `j` inside the window on the column axis is its column coordinate. -/
theorem window1 (j : (⟨2, ![P, Q]⟩ : Shape).Idx) :
    (winDims A B P Q wf).window j 1 = (j 1).val := by
  unfold ScatterDims.window
  rw [dif_pos (by simp [ScatterDims.sKept, Shape.kept])]
  rfl

/-- With the corner at `(r0, c0)` and the window inside the operand, update entry `j` lands on the operand's entry
    `(r0 + j 0, c0 + j 1)`: start plus offset on each axis, and that is in range. -/
theorem land (idx : IVec ⟨1, ![2]⟩ w) (r0 c0 : Nat)
    (h0 : (idx (ix1 (0 : Fin 2))).toInt = (r0 : Int)) (h1 : (idx (ix1 (1 : Fin 2))).toInt = (c0 : Int))
    (hr : r0 + P ≤ A) (hc : c0 + Q ≤ B) (j : (⟨2, ![P, Q]⟩ : Shape).Idx) :
    (winDims A B P Q wf).resultIdx? j idx
      = some (ix2 ⟨r0 + (j 0).val, by have := idx2_lt0 j; omega⟩ ⟨c0 + (j 1).val, by have := idx2_lt1 j; omega⟩) := by
  have hp := idx2_lt0 j
  have hq := idx2_lt1 j
  unfold ScatterDims.resultIdx?
  have hall : ∀ a, 0 ≤ (winDims A B P Q wf).start j idx a + (winDims A B P Q wf).window j a ∧
      (winDims A B P Q wf).start j idx a + (winDims A B P Q wf).window j a < (⟨2, ![A, B]⟩ : Shape).size a := by
    intro a
    match a with
    | ⟨0, _⟩ =>
      show 0 ≤ (winDims A B P Q wf).start j idx 0 + (winDims A B P Q wf).window j 0 ∧
        (winDims A B P Q wf).start j idx 0 + (winDims A B P Q wf).window j 0 < (A : Int)
      rw [start0, window0, h0]; omega
    | ⟨1, _⟩ =>
      show 0 ≤ (winDims A B P Q wf).start j idx 1 + (winDims A B P Q wf).window j 1 ∧
        (winDims A B P Q wf).start j idx 1 + (winDims A B P Q wf).window j 1 < (B : Int)
      rw [start1, window1, h1]; omega
  rw [dif_pos hall]
  congr 1
  funext a; refine Fin.ext ?_
  match a with
  | ⟨0, _⟩ =>
    show ((winDims A B P Q wf).start j idx 0 + (winDims A B P Q wf).window j 0).toNat = r0 + (j 0).val
    rw [start0, window0, h0]; omega
  | ⟨1, _⟩ =>
    show ((winDims A B P Q wf).start j idx 1 + (winDims A B P Q wf).window j 1).toNat = c0 + (j 1).val
    rw [start1, window1, h1]; omega

end Land

/-- The window scatter read at `(a, b)`: the update inside the window, the operand outside it. -/
theorem scatter_window_set_apply {α : Type} {A B P Q w : Nat}
    (wf : ScatterDims.WF ⟨2, ![A, B]⟩ ⟨1, ![2]⟩ ⟨2, ![P, Q]⟩ [0, 1] [] [0, 1] 0)
    (x : (⟨2, ![A, B]⟩ : Shape).Idx → α) (idx : IVec ⟨1, ![2]⟩ w) (upd : (⟨2, ![P, Q]⟩ : Shape).Idx → α)
    (r0 c0 : Nat) (h0 : (idx (ix1 (0 : Fin 2))).toInt = (r0 : Int)) (h1 : (idx (ix1 (1 : Fin 2))).toInt = (c0 : Int))
    (hr : r0 + P ≤ A) (hc : c0 + Q ≤ B) (a : Fin A) (b : Fin B) :
    Host.scatter (winDims A B P Q wf) (fun _ v => v) x idx upd (ix2 a b)
      = if h : (r0 ≤ a.val ∧ a.val < r0 + P) ∧ (c0 ≤ b.val ∧ b.val < c0 + Q) then
          upd (ix2 ⟨a.val - r0, by omega⟩ ⟨b.val - c0, by omega⟩)
        else x (ix2 a b) := by
  have hland := land wf idx r0 c0 h0 h1 hr hc
  unfold Host.scatter
  by_cases h : (r0 ≤ a.val ∧ a.val < r0 + P) ∧ (c0 ≤ b.val ∧ b.val < c0 + Q)
  · rw [dif_pos h]
    refine (foldl_entry_hit _ _ _ _
      ((⟨2, ![P, Q]⟩ : Shape).rowMajor (ix2 ⟨a.val - r0, by omega⟩ ⟨b.val - c0, by omega⟩))
      (upd (ix2 ⟨a.val - r0, by omega⟩ ⟨b.val - c0, by omega⟩)) (List.mem_finRange _) ?_ ?_)
    · intro r
      beta_reduce
      rw [Equiv.symm_apply_apply, hland]
      show (if ix2 a b = _ then _ else _) = _
      rw [if_pos]
      funext d; refine Fin.ext ?_
      match d with
      | ⟨0, _⟩ => show a.val = r0 + (a.val - r0); omega
      | ⟨1, _⟩ => show b.val = c0 + (b.val - c0); omega
    · intro m _ hne r
      beta_reduce
      rw [hland]
      show (if ix2 a b = _ then _ else _) = _
      rw [if_neg]
      intro e
      have ea : a.val = r0 + (((⟨2, ![P, Q]⟩ : Shape).rowMajor.symm m) 0).val := congrArg Fin.val (congrFun e 0)
      have eb : b.val = c0 + (((⟨2, ![P, Q]⟩ : Shape).rowMajor.symm m) 1).val := congrArg Fin.val (congrFun e 1)
      apply hne
      rw [← Equiv.symm_apply_eq]
      funext d; refine Fin.ext ?_
      match d with
      | ⟨0, _⟩ => show (((⟨2, ![P, Q]⟩ : Shape).rowMajor.symm m) 0).val = a.val - r0; omega
      | ⟨1, _⟩ => show (((⟨2, ![P, Q]⟩ : Shape).rowMajor.symm m) 1).val = b.val - c0; omega
  · rw [dif_neg h]
    refine foldl_entry_miss _ _ _ _ ?_
    intro m _ r
    beta_reduce
    rw [hland]
    show (if ix2 a b = _ then _ else _) = _
    rw [if_neg]
    intro e
    have ea : a.val = r0 + (((⟨2, ![P, Q]⟩ : Shape).rowMajor.symm m) 0).val := congrArg Fin.val (congrFun e 0)
    have eb : b.val = c0 + (((⟨2, ![P, Q]⟩ : Shape).rowMajor.symm m) 1).val := congrArg Fin.val (congrFun e 1)
    have hp := idx2_lt0 ((⟨2, ![P, Q]⟩ : Shape).rowMajor.symm m)
    have hq := idx2_lt1 ((⟨2, ![P, Q]⟩ : Shape).rowMajor.symm m)
    exact h ⟨⟨by omega, by omega⟩, ⟨by omega, by omega⟩⟩

end Cert.Lib.ScatterWindow

end
-- ==== Proof.RefScatter.lean ====
/-
  The reference builds `diag p` by scattering the softmax into a zero array along the diagonal: index vector `n`
  is `(n, n)`, the update's row axis is the batch axis. Read at `(b, i, j)` the result is `p b i` on the diagonal
  and zero off it.

  The index vectors. Each column of the index array holds, at row `n`, the word `n` passed through the negative-index
  wrap `w ↦ if w < 0 then w + 128 else w`. A word below 128 is not negative as a signed 32-bit integer, so the wrap
  leaves it: both components of index vector `n` are the word `n`, whose signed value is `n`.

  Where an update lands. The update `[8192, 128]` has one window axis, its axis 0, which goes to the one axis of the
  operand that is not inserted, axis 0; its axis 1 selects the index vector. So update entry `(b', n)` has window start
  `(0, n, n)` and window offset `(b', 0, 0)`: it lands on `(b', n, n)`, which is inside the operand.

  The fold. The scatter visits the update's entries one after another, each replacing the entry it lands on by the
  update's value. The landing entries `(b', n, n)` are pairwise distinct, so entry `(b, i, j)` of the result is touched
  by no update when `i ≠ j` (the operand's zero stays) and by exactly one, `(b, i)`, when `i = j`.
-/
import proofs.«174759_j18476949308045_2_alg».proof.Proof.Gen.ReferenceIdeal.Read
import proofs.«174759_j18476949308045_2_alg».proof.Proof.LibConcatCols
import proofs.«174759_j18476949308045_2_alg».proof.Proof.LibScatterWindow
import Idealize.ShloMosaic.Lib.ValueIdx

noncomputable section

namespace Cert.ReferenceIdeal.RefScatter

open Cert.ReferenceIdeal Cert.ReferenceIdeal.Gen Cert.ReferenceIdeal.Read Idealize.ShloMosaic Idealize.ShloMosaic.ValueIdx

/-! ## The index vectors -/

/-- A word below 128 is not negative as a signed 32-bit integer. -/
theorem word_not_neg (n : Fin 128) : (BitVec.ofNat 32 n.val).slt 0#32 = false := by
  revert n; decide

/-- A word below 128 read as a signed integer is the number itself. -/
theorem word_toInt (n : Fin 128) : (BitVec.ofNat 32 n.val).toInt = (n.val : Int) := by
  revert n; decide

/-- The negative-index wrap `if w < 0 then w + 128 else w` is the identity on the words `0 … 127`. -/
theorem wrap_word (n : Fin 128) :
    Scalar.select (IntOp.cmpi .slt (BitVec.ofNat 32 n.val) 0#32) (IntOp.addi (BitVec.ofNat 32 n.val) 128#32)
      (BitVec.ofNat 32 n.val) = BitVec.ofNat 32 n.val := by
  have h : IntOp.cmpi .slt (BitVec.ofNat 32 n.val) 0#32 = 0#1 := by
    show BitVec.ofBool ((BitVec.ofNat 32 n.val).slt 0#32) = 0#1
    rw [word_not_neg]; rfl
  rw [h]
  exact select_zero _ _

/-- The first wrapped counter at `n` is the word `n`. -/
theorem wrapped_fst (n : Fin 128) : val_main_v23 (F := Ideal) (ix1 n) = BitVec.ofNat 32 n.val := by
  rw [val_main_v23_apply, val_main_v20_apply, val_main_v22_apply, val_main_v17_apply, val_main_v19_apply,
    val_main_c_apply, val_main_v21_apply, val_main_c_3_apply]
  exact wrap_word n

/-- The second wrapped counter at `n` is the word `n`. -/
theorem wrapped_snd (n : Fin 128) : val_main_v28 (F := Ideal) (ix1 n) = BitVec.ofNat 32 n.val := by
  rw [val_main_v28_apply, val_main_v25_apply, val_main_v27_apply, val_main_v18_apply, val_main_v24_apply,
    val_main_c_4_apply, val_main_v26_apply, val_main_c_5_apply]
  exact wrap_word n

/-- The first component of index vector `n` is the word `n`: column 0 of the joined array is the first piece. -/
theorem index_fst (n : Fin 128) : val_main_v31 (F := Ideal) (ix2 n (0 : Fin 2)) = BitVec.ofNat 32 n.val := by
  unfold val_main_v31
  refine (Cert.ConcatCols.pair_left _ _ _ n (0 : Fin 1) (0 : Fin 2) rfl).trans ?_
  rw [val_main_v29_apply]
  exact wrapped_fst n

/-- The second component of index vector `n` is the word `n`: column 1 of the joined array is the second piece. -/
theorem index_snd (n : Fin 128) : val_main_v31 (F := Ideal) (ix2 n (1 : Fin 2)) = BitVec.ofNat 32 n.val := by
  unfold val_main_v31
  refine (Cert.ConcatCols.pair_right _ _ _ n (0 : Fin 1) (1 : Fin 2) rfl).trans ?_
  rw [val_main_v30_apply]
  exact wrapped_snd n

/-! ## Where an entry of the update lands -/

/-- The dimension numbers of the diagonal scatter: the update's axis 0 is a window axis and goes to the operand's
    axis 0 (the batch axis), the operand's axes 1 and 2 are inserted, and the two components of an index vector
    address them. -/
abbrev diagDims : ScatterDims S8192x128x128 S128x2 S8192x128 := scatter_S8192x128x128_S128x2_S8192x128_0_12_12_1

section Land

variable {w : Nat}

/-- No component of an index vector addresses the batch axis: the window starts at 0 there. -/
theorem diag_start0 (j : S8192x128.Idx) (idx : IVec S128x2 w) : diagDims.start j idx 0 = 0 := by
  unfold ScatterDims.start
  exact dif_neg (by decide)

/-- On the operand's axis 1 the window starts at the first component of the index vector that the update entry's
    column selects. -/
theorem diag_start1 (b : Fin 8192) (n : Fin 128) (idx : IVec S128x2 w) :
    diagDims.start (ix2 b n) idx 1 = (idx (ix2 n (0 : Fin 2))).toInt := by
  unfold ScatterDims.start
  rw [dif_pos (by decide)]
  congr 2
  funext a; refine Fin.ext ?_
  match a with
  | ⟨0, _⟩ => rfl
  | ⟨1, _⟩ => rfl

/-- On the operand's axis 2 the window starts at the second component of that index vector. -/
theorem diag_start2 (b : Fin 8192) (n : Fin 128) (idx : IVec S128x2 w) :
    diagDims.start (ix2 b n) idx 2 = (idx (ix2 n (1 : Fin 2))).toInt := by
  unfold ScatterDims.start
  rw [dif_pos (by decide)]
  congr 2
  funext a; refine Fin.ext ?_
  match a with
  | ⟨0, _⟩ => rfl
  | ⟨1, _⟩ => rfl

/-- On the batch axis the offset inside the window is the update entry's row. -/
theorem diag_window0 (b : Fin 8192) (n : Fin 128) : diagDims.window (ix2 b n) 0 = b.val := by
  unfold ScatterDims.window
  rw [dif_pos (by decide)]
  rfl

/-- The operand's axis 1 is inserted: the offset there is 0. -/
theorem diag_window1 (j : S8192x128.Idx) : diagDims.window j 1 = 0 := by
  unfold ScatterDims.window
  exact dif_neg (by decide)

/-- The operand's axis 2 is inserted: the offset there is 0. -/
theorem diag_window2 (j : S8192x128.Idx) : diagDims.window j 2 = 0 := by
  unfold ScatterDims.window
  exact dif_neg (by decide)

/-- When index vector `n` is `(n, n)`, update entry `(b, n)` lands on the operand's entry `(b, n, n)`: start plus
    offset on each axis, and that is in range. -/
theorem diag_land (idx : IVec S128x2 w) (b : Fin 8192) (n : Fin 128)
    (h0 : (idx (ix2 n (0 : Fin 2))).toInt = (n.val : Int)) (h1 : (idx (ix2 n (1 : Fin 2))).toInt = (n.val : Int)) :
    diagDims.resultIdx? (ix2 b n) idx = some (ix3 b n n) := by
  have hb := b.isLt
  have hn := n.isLt
  unfold ScatterDims.resultIdx?
  have hall : ∀ a, 0 ≤ diagDims.start (ix2 b n) idx a + diagDims.window (ix2 b n) a ∧
      diagDims.start (ix2 b n) idx a + diagDims.window (ix2 b n) a < S8192x128x128.size a := by
    intro a
    match a with
    | ⟨0, _⟩ =>
      show 0 ≤ diagDims.start (ix2 b n) idx 0 + diagDims.window (ix2 b n) 0 ∧
        diagDims.start (ix2 b n) idx 0 + diagDims.window (ix2 b n) 0 < ((8192 : Nat) : Int)
      rw [diag_start0, diag_window0]; omega
    | ⟨1, _⟩ =>
      show 0 ≤ diagDims.start (ix2 b n) idx 1 + diagDims.window (ix2 b n) 1 ∧
        diagDims.start (ix2 b n) idx 1 + diagDims.window (ix2 b n) 1 < ((128 : Nat) : Int)
      rw [diag_start1, diag_window1, h0]; omega
    | ⟨2, _⟩ =>
      show 0 ≤ diagDims.start (ix2 b n) idx 2 + diagDims.window (ix2 b n) 2 ∧
        diagDims.start (ix2 b n) idx 2 + diagDims.window (ix2 b n) 2 < ((128 : Nat) : Int)
      rw [diag_start2, diag_window2, h1]; omega
  rw [dif_pos hall]
  congr 1
  funext a; refine Fin.ext ?_
  match a with
  | ⟨0, _⟩ =>
    show (diagDims.start (ix2 b n) idx 0 + diagDims.window (ix2 b n) 0).toNat = b.val
    rw [diag_start0, diag_window0]; omega
  | ⟨1, _⟩ =>
    show (diagDims.start (ix2 b n) idx 1 + diagDims.window (ix2 b n) 1).toNat = n.val
    rw [diag_start1, diag_window1, h0]; omega
  | ⟨2, _⟩ =>
    show (diagDims.start (ix2 b n) idx 2 + diagDims.window (ix2 b n) 2).toNat = n.val
    rw [diag_start2, diag_window2, h1]; omega

end Land

/-- With the program's index vectors, update entry `(b', n)` lands on the operand's entry `(b', n, n)`. -/
theorem diag_land_main (b' : Fin 8192) (n : Fin 128) :
    diagDims.resultIdx? (ix2 b' n) (val_main_v31 (F := Ideal)) = some (ix3 b' n n) :=
  diag_land _ b' n (by rw [index_fst]; exact word_toInt n) (by rw [index_snd]; exact word_toInt n)

/-! ## The scattered array read at an entry -/

/-- The scattered array at `(b, i, j)`: the softmax entry `(b, i)` when `i = j`, zero otherwise. -/
theorem diag_read (x0 : (⟨S8192x128, .f32⟩ : BufTy).Contents (Elt Ideal)) (b : Fin 8192) (i j : Fin 128) :
    val_main_v32 (F := Ideal) x0 (ix3 b i j)
      = if i = j then val_main_v10 (F := Ideal) x0 (ix2 b i) else (0 : EReal) := by
  unfold val_main_v32 Host.scatter
  by_cases h : i = j
  · -- on the diagonal: update entry (b, i) sets the entry, every other update entry lands elsewhere
    subst h
    rw [if_pos rfl]
    refine Cert.Lib.ScatterWindow.foldl_entry_hit _ _ _ _ (S8192x128.rowMajor (ix2 b i))
      (val_main_v10 (F := Ideal) x0 (ix2 b i)) (List.mem_finRange _) ?_ ?_
    · intro r
      beta_reduce
      rw [Equiv.symm_apply_apply, diag_land_main]
      show (if ix3 b i i = ix3 b i i then _ else _) = _
      rw [if_pos rfl]
    · intro m _ hne r
      beta_reduce
      obtain ⟨b', n, hm⟩ : ∃ (b' : Fin 8192) (n : Fin 128), S8192x128.rowMajor.symm m = ix2 b' n :=
        ⟨_, _, eq_ix2 _⟩
      rw [hm, diag_land_main]
      show (if ix3 b i i = ix3 b' n n then _ else _) = _
      rw [if_neg]
      -- (b, i, i) = (b', n, n) would make the update entry (b', n) the entry (b, i)
      intro e
      have eb : b = b' := congrFun e 0
      have ei : i = n := congrFun e 1
      apply hne
      rw [← Equiv.symm_apply_eq, hm, eb, ei]
  · -- off the diagonal: every update entry lands on a diagonal entry, so the operand's zero stays
    rw [if_neg h]
    refine (Cert.Lib.ScatterWindow.foldl_entry_miss _ _ _ _ ?_).trans ?_
    · intro m _ r
      beta_reduce
      obtain ⟨b', n, hm⟩ : ∃ (b' : Fin 8192) (n : Fin 128), S8192x128.rowMajor.symm m = ix2 b' n :=
        ⟨_, _, eq_ix2 _⟩
      rw [hm, diag_land_main]
      show (if ix3 b i j = ix3 b' n n then _ else _) = _
      rw [if_neg]
      -- (b, i, j) = (b', n, n) would give i = n = j
      intro e
      have ei : i = n := congrFun e 1
      have ej : j = n := congrFun e 2
      exact h (ei.trans ej.symm)
    · -- the operand is the zero array: the word 0 of the float format is the real 0
      rw [val_main_v16_apply, val_main_cst_2_apply]
      exact Ideal.ofBits_zero_f32

end Cert.ReferenceIdeal.RefScatter

end
-- ==== Proof.RefValue.lean ====
/-
  The reference program's two results, read at the exact (extended-real) instance, are the specification's
  `probs` and `covOutSandwich`.

  First result. Fix a batch row `b` and write `x = rowOf mu b` for its 128 logits.
  * The program's row maximum is a fold of `max` over the 128 coordinates of the row, started from the word
    `0xFF800000`, which is −∞ = ⊥: this is `rowMax x` (`rowMax_read`). Taking `max` with −∞ once more changes
    nothing, since ⊥ is the least element (`max_read`).
  * The shifted exponential at (b, k) is `exp (x k − max x)` (`exp_read`).
  * The row sum starts from the zero word, which is 0, so it is `∑ k', exp (x k' − max x)` (`sum_read`).
  * The quotient of the two is the softmax (`probs_read`, `ref_probs`).
  The broadcasts in between only re-index: the element (b, k) of a broadcast row statistic is the statistic at `b`.

  Second result. With `p = softmax x`, the Jacobian stage at (b, i, j) is the diagonal embedding of `p`,
  `if i = j then p i else 0`, minus the outer product `p i * p j`; that is `jac p i j` (`jac_read`). The two
  contractions are
      C[b, k, i] = ∑ j, S[b, j, k] * J[b, i, j]      and      R[b, i, l] = ∑ k, C[b, k, i] * J[b, l, k],
  so `R[b, i, l] = ∑ k, (∑ j, S j k * J i j) * J l k = covSandwich p S i l`, term by term (`ref_cov`).
-/
import proofs.«174759_j18476949308045_2_alg».proof.Proof.Spec
import proofs.«174759_j18476949308045_2_alg».proof.Proof.Gen.ReferenceIdeal.Read
import proofs.«174759_j18476949308045_2_alg».proof.Proof.RefScatter

noncomputable section

namespace Cert.ReferenceIdeal.RefValue

open Cert.ReferenceIdeal Cert.ReferenceIdeal.Gen Cert.ReferenceIdeal.Read Cert.SoftmaxCov Idealize.ShloMosaic Idealize.ShloMosaic.ValueIdx

/-- The word `0xFF800000` (sign 1, exponent all ones, mantissa 0) is −∞, the least extended real. -/
theorem negInf_word : Ideal.ofBits .f32 0xFF800000#32 = (⊥ : EReal) := by
  simp [Ideal.ofBits, Ideal.ieee]

/-- The max-reduction over axis 1, at row `b`: `max` is commutative and associative, so the reduction is the fold of
    `max` from the initial word over the row's 128 coordinates; the source index over `b` with coordinate `k` on the
    reduced axis is (b, k). -/
theorem rowMax_read (mu : (⟨S8192x128, .f32⟩ : BufTy).Contents (Elt Ideal)) (b : Fin 8192) :
    val_main_v0 (F := Ideal) mu (ix1 b) = rowMax (rowOf mu b) := by
  have h : S8192x128.Reduces [1] S8192 := by decide
  unfold val_main_v0
  refine (Host.reduce_eq_fold_single (FloatOps.maximumf (F := Ideal) (φ := .f32)) mu
    (val_main_cst (F := Ideal)) reducesTo_S8192x128_S8192_d1 h h_S_ (ix1 b)).trans ?_
  unfold rowMax rowOf
  show Finset.fold max (Ideal.ofBits .f32 0xFF800000#32) (mu ∘ h.lift (ix1 b)) (Finset.univ : Finset (Fin 128)) = _
  refine congrArg (fun f => Finset.fold max (Ideal.ofBits .f32 0xFF800000#32) f (Finset.univ : Finset (Fin 128))) (funext fun k => ?_)
  -- the lifted index has coordinates (b, k)
  exact congrArg mu (funext fun a => Fin.ext (by match a with | ⟨0, _⟩ => rfl | ⟨1, _⟩ => rfl))

/-- `max (−∞) m = m`: the elementwise maximum with the broadcast −∞ leaves the row maximum as it is. -/
theorem max_read (mu : (⟨S8192x128, .f32⟩ : BufTy).Contents (Elt Ideal)) (b : Fin 8192) :
    val_main_v2 (F := Ideal) mu (ix1 b) = rowMax (rowOf mu b) := by
  rw [val_main_v2_apply, val_main_v1_apply, val_main_cst_0_apply, rowMax_read]
  show max (Ideal.ofBits .f32 0xFF800000#32) _ = _
  rw [negInf_word]
  exact max_eq_right bot_le

/-- The shifted exponential at (b, k) is `exp (x k − max x)`: the row maximum broadcast back to (b, k) is read at `b`. -/
theorem exp_read (mu : (⟨S8192x128, .f32⟩ : BufTy).Contents (Elt Ideal)) (b : Fin 8192) (k : Fin 128) :
    val_main_v6 (F := Ideal) mu (ix2 b k) = expShift (rowOf mu b) k := by
  rw [val_main_v6_apply, val_main_v5_apply, val_main_v4_apply, val_main_v3_apply]
  -- (b, k) ↦ (b, 0) ↦ b through the two broadcasts
  have e : idx_main_v3 (idx_main_v4 (ix2 b k)) = ix1 b :=
    funext fun a => Fin.ext (by match a with | ⟨0, _⟩ => rfl)
  rw [e, max_read]
  rfl

/-- The row sum of the shifted exponentials: the initial word is 0, and `0 + s = s`. -/
theorem sum_read (mu : (⟨S8192x128, .f32⟩ : BufTy).Contents (Elt Ideal)) (b : Fin 8192) :
    val_main_v7 (F := Ideal) mu (ix1 b) = ∑ k' : Fin 128, expShift (rowOf mu b) k' := by
  rw [val_main_v7_apply, val_main_cst_1_apply]
  show Ideal.ofBits .f32 0x00000000#32 + _ = _
  rw [Ideal.ofBits_zero_f32, zero_add]
  refine Finset.sum_congr rfl fun k _ => ?_
  -- the summand's index over `b` with coordinate `k` is (b, k)
  have e : idx_main_v7 (ix1 b) k = ix2 b k :=
    funext fun a => Fin.ext (by match a with | ⟨0, _⟩ => rfl | ⟨1, _⟩ => rfl)
  rw [e, exp_read]

/-- The quotient at (b, k) is the softmax of row `b` at `k`: the row sum broadcast back to (b, k) is read at `b`. -/
theorem probs_read (mu : (⟨S8192x128, .f32⟩ : BufTy).Contents (Elt Ideal)) (b : Fin 8192) (k : Fin 128) :
    val_main_v10 (F := Ideal) mu (ix2 b k) = softmax (rowOf mu b) k := by
  rw [val_main_v10_apply, val_main_v9_apply, val_main_v8_apply]
  have e : idx_main_v8 (idx_main_v9 (ix2 b k)) = ix1 b :=
    funext fun a => Fin.ext (by match a with | ⟨0, _⟩ => rfl)
  rw [e, sum_read, exp_read]
  rfl

/-- The reference's first result is every row's softmax. -/
theorem ref_probs (mu : (⟨S8192x128, .f32⟩ : BufTy).Contents (Elt Ideal)) :
    val_main_v10 (F := Ideal) mu = probs mu := by
  funext q
  obtain ⟨b, k, rfl⟩ : ∃ (b : Fin 8192) (k : Fin 128), q = ix2 b k := ⟨q 0, q 1, eq_ix2 q⟩
  exact probs_read mu b k

/-- The Jacobian stage at (b, i, j): the diagonal embedding `if i = j then p i else 0` of the softmax `p` of row `b`,
    minus the outer product `p i * p j` (whose two factors are `p` broadcast along the last and the middle axis). -/
theorem jac_read (mu : (⟨S8192x128, .f32⟩ : BufTy).Contents (Elt Ideal)) (b : Fin 8192) (i j : Fin 128) :
    val_main_v33 (F := Ideal) mu (ix3 b i j) = jac (softmax (rowOf mu b)) i j := by
  rw [val_main_v33_apply, Cert.ReferenceIdeal.RefScatter.diag_read, val_main_v15_apply,
    val_main_v13_apply, val_main_v14_apply, val_main_v11_apply, val_main_v12_apply]
  -- (b, i, j) ↦ (b, i, 0) ↦ (b, i)   and   (b, i, j) ↦ (b, 0, j) ↦ (b, j)
  have e1 : idx_main_v11 (idx_main_v13 (ix3 b i j)) = ix2 b i :=
    funext fun a => Fin.ext (by match a with | ⟨0, _⟩ => rfl | ⟨1, _⟩ => rfl)
  have e2 : idx_main_v12 (idx_main_v14 (ix3 b i j)) = ix2 b j :=
    funext fun a => Fin.ext (by match a with | ⟨0, _⟩ => rfl | ⟨1, _⟩ => rfl)
  rw [e1, e2, probs_read, probs_read]
  rfl

/-- The reference's second result is the sandwich J S Jᵀ of every row's softmax Jacobian and covariance. -/
theorem ref_cov (mu : (⟨S8192x128, .f32⟩ : BufTy).Contents (Elt Ideal)) (sg : (⟨S8192x128x128, .f32⟩ : BufTy).Contents (Elt Ideal)) :
    val_main_v35 (F := Ideal) mu sg = covOutSandwich mu sg := by
  funext q
  obtain ⟨b, i, l, rfl⟩ : ∃ (b : Fin 8192) (i l : Fin 128), q = ix3 b i l := ⟨q 0, q 1, q 2, eq_ix3 q⟩
  rw [val_main_v35_apply]
  show _ = covSandwich (softmax (rowOf mu b)) (slabOf sg b) i l
  unfold covSandwich
  refine Finset.sum_congr rfl fun k _ => ?_
  -- the outer contraction at (b, i, l), term `k`: the first contraction at (b, k, i) times the Jacobian at (b, l, k)
  have el : lidx_main_v35 (ix3 b i l) k = ix3 b k i :=
    funext fun a => Fin.ext (by match a with | ⟨0, _⟩ => rfl | ⟨1, _⟩ => rfl | ⟨2, _⟩ => rfl)
  have er : ridx_main_v35 (ix3 b i l) k = ix3 b l k :=
    funext fun a => Fin.ext (by match a with | ⟨0, _⟩ => rfl | ⟨1, _⟩ => rfl | ⟨2, _⟩ => rfl)
  rw [el, er, jac_read, val_main_v34_apply]
  refine congrArg (· * jac (softmax (rowOf mu b)) l k) (Finset.sum_congr rfl fun j _ => ?_)
  -- the inner contraction at (b, k, i), term `j`: the covariance at (b, j, k) times the Jacobian at (b, i, j)
  have el' : lidx_main_v34 (ix3 b k i) j = ix3 b j k :=
    funext fun a => Fin.ext (by match a with | ⟨0, _⟩ => rfl | ⟨1, _⟩ => rfl | ⟨2, _⟩ => rfl)
  have er' : ridx_main_v34 (ix3 b k i) j = ix3 b i j :=
    funext fun a => Fin.ext (by match a with | ⟨0, _⟩ => rfl | ⟨1, _⟩ => rfl | ⟨2, _⟩ => rfl)
  rw [el', er', jac_read]
  rfl

end Cert.ReferenceIdeal.RefValue

end
-- ==== Proof.lean ====
/-
  The certificate of a softmax-with-covariance kernel against its jnp reference, on the extended reals.

  For each of 8192 batch rows both programs compute the softmax `p` of 128 logits — by the same operations, the
  maximum taken from −∞, the exponentials of the shifted logits, their sum, the quotient — and the covariance
  `J S Jᵀ` of the row's 128 × 128 input covariance `S` under the softmax Jacobian `J = diag p − p pᵀ`.
  The reference forms `J` (a diagonal scattered into a zero array, less the outer product) and contracts twice;
  the kernel evaluates the expanded form `p i · p l · (S i l − (Sᵀ p) l − (S p) i + pᵀ S p)` on blocks of 128 rows.
  The two agree where `p` and `S` are real, which the precondition (every input finite) gives: the expansion uses
  the distributive law, which fails at the infinities.

  The pieces: `Spec` states both forms; `Law` proves them equal on real entries and that a real row has a real
  softmax; `Finite` reads the precondition; `KernelBlock` and `KernelArray` read the kernel's run block by block
  and assemble the whole arrays; `RefScatter` and `RefValue` read the reference's run. The three frames are the
  generated ones; the idealization rewrote no operation, so it is preserved trivially.
-/
import proofs.«174759_j18476949308045_2_alg».proof.Defs
import proofs.«174759_j18476949308045_2_alg».proof.Proof.Gen.Kernel
import proofs.«174759_j18476949308045_2_alg».proof.Proof.Gen.Kernel.Skeleton
import proofs.«174759_j18476949308045_2_alg».proof.Proof.Gen.Kernel.Launch
import proofs.«174759_j18476949308045_2_alg».proof.Proof.Gen.Kernel.Points
import proofs.«174759_j18476949308045_2_alg».proof.Proof.Gen.Kernel.Frame
import proofs.«174759_j18476949308045_2_alg».proof.Proof.Gen.KernelIdeal
import proofs.«174759_j18476949308045_2_alg».proof.Proof.Gen.KernelIdeal.Skeleton
import proofs.«174759_j18476949308045_2_alg».proof.Proof.Gen.KernelIdeal.Launch
import proofs.«174759_j18476949308045_2_alg».proof.Proof.Gen.KernelIdeal.Points
import proofs.«174759_j18476949308045_2_alg».proof.Proof.Gen.KernelIdeal.Frame
import proofs.«174759_j18476949308045_2_alg».proof.Proof.Gen.ReferenceIdeal
import proofs.«174759_j18476949308045_2_alg».proof.Proof.Gen.Pre_finite_inputs
import proofs.«174759_j18476949308045_2_alg».proof.Proof.Gen.KernelIdeal.Value
import proofs.«174759_j18476949308045_2_alg».proof.Proof.Gen.ReferenceIdeal.Run
import proofs.«174759_j18476949308045_2_alg».proof.Proof.Gen.ReferenceIdeal.Read
import proofs.«174759_j18476949308045_2_alg».proof.Proof.Spec
import proofs.«174759_j18476949308045_2_alg».proof.Proof.Law
import proofs.«174759_j18476949308045_2_alg».proof.Proof.Finite
import proofs.«174759_j18476949308045_2_alg».proof.Proof.KernelArray
import proofs.«174759_j18476949308045_2_alg».proof.Proof.RefValue
import Idealize.ShloMosaic.Adequacy
import Idealize.ShloMosaic.Init

noncomputable section

namespace Cert.Proof

open Idealize.ShloMosaic Idealize.ShloMosaic.TcCoe Idealize.SL.Sem Cert.SoftmaxCov

/-- On real logits and real covariances the sandwich and the closed form are one array. -/
theorem covOut_eq (mu : Logits) (sg : Covs) (hmu : ∀ i, ∃ r : ℝ, mu i = (r : EReal))
    (hsg : ∀ i, ∃ r : ℝ, sg i = (r : EReal)) : covOutSandwich mu sg = covOut mu sg := by
  funext i
  exact covSandwich_eq_covClosed _ _ (fun k => softmax_real _ (fun k' => hmu _) k) (fun j k => hsg _) _ _

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end with the first result at every row's softmax and the second at the propagated covariance: the
    kernel's in closed form, the reference's as the sandwich, equal because the inputs are real. -/
theorem algebraic : Cert.algebraic_KernelIdeal_ReferenceIdeal := by
  intro m ρ m' ρ' hpre hagree
  refine ⟨_, _, Cert.KernelIdeal.ArrayValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v10_eq, Cert.ReferenceIdeal.RefValue.ref_probs, (hagree c).1]
  · rw [(h c).2.1, Cert.ReferenceIdeal.Read.val_main_v35_eq, Cert.ReferenceIdeal.RefValue.ref_cov, (hagree c).1,
      (hagree c).2]
    obtain ⟨hmu, hsg⟩ := Cert.Finite.inputs_real _ _ (hpre c)
    exact covOut_eq _ _ hmu hsg

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
